-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S1x32 : Shape := ⟨2, ![1, 32]⟩
abbrev S800000 : Shape := ⟨1, ![800000]⟩
abbrev S64x128 : Shape := ⟨2, ![64, 128]⟩
abbrev S64 : Shape := ⟨1, ![64]⟩
abbrev S64x64 : Shape := ⟨2, ![64, 64]⟩
abbrev S64x32 : Shape := ⟨2, ![64, 32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x32 : S_.BroadcastsInDim S1x32 (![] : Fin 0 → Fin S1x32.rank)
  reducesTo_S1x32_S_d0_1 : S1x32.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_v47 : IVec S_ 1) (main_v49 : IVec S800000 1) (main_c_19 : IVec S_ 1) : IVec S_ 1 :=
  let main_v50 : IVec S_ 1 := (fun x v => Host.reduce IntOp.andi x v reducesTo_S800000_S_d0 h_S_) main_v49 main_c_19
  let main_v51 : IVec S_ 1 := andi main_v47 main_v50
  main_v51

def fn_part2 {F : FTy → Type} [FloatOps F] (main_arg3 : IVec S800000 32) (main_arg4 : IVec S800000 32) (main_arg9 : FVec F S64x32 .f32) (main_arg10 : FVec F S64 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S800000 32 := broadcastInDim S800000 ![] bcast_S_S800000 main_c_16
  let main_v45 : IVec S800000 1 := cmpi .sge main_arg3 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v43 main_v46
  let main_c_18 : IVec S_ 32 := constantI S_ 32 0#32
  let main_v48 : IVec S800000 32 := broadcastInDim S800000 ![] bcast_S_S800000 main_c_18
  let main_v49 : IVec S800000 1 := cmpi .sge main_arg4 main_v48
  let main_c_19 : IVec S_ 1 := constantI S_ 1 1#1
  fn_part3 (F := F) main_v47 main_v49 main_c_19

def fn_part1 {F : FTy → Type} [FloatOps F] (main_arg3 : IVec S800000 32) (main_arg4 : IVec S800000 32) (main_arg6 : FVec F S64 .f32) (main_arg7 : FVec F S64x64 .f32) (main_arg8 : FVec F S64 .f32) (main_arg9 : FVec F S64x32 .f32) (main_arg10 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg9 main_arg10 main_v33

def fn {F : FTy → Type} [FloatOps F] (main_arg0 : FVec F S50000x128 .f32) (main_arg1 : FVec F S800000x64 .f32) (main_arg2 : FVec F S1x32 .f32) (main_arg3 : IVec S800000 32) (main_arg4 : IVec S800000 32) (main_arg5 : FVec F S64x128 .f32) (main_arg6 : FVec F S64 .f32) (main_arg7 : FVec F S64x64 .f32) (main_arg8 : FVec F S64 .f32) (main_arg9 : FVec F S64x32 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg3 main_arg4 main_arg6 main_arg7 main_arg8 main_arg9 main_arg10 main_v13 main_v16
-- ==== Kernel.lean ====
abbrev S50000x128 : Shape := ⟨2, ![50000, 128]⟩
abbrev S800000x64 : Shape := ⟨2, ![800000, 64]⟩
abbrev S1x32 : Shape := ⟨2, ![1, 32]⟩
abbrev S800000 : Shape := ⟨1, ![800000]⟩
abbrev S64x128 : Shape := ⟨2, ![64, 128]⟩
abbrev S64 : Shape := ⟨1, ![64]⟩
abbrev S64x64 : Shape := ⟨2, ![64, 64]⟩
abbrev S64x32 : Shape := ⟨2, ![64, 32]⟩
abbrev S128x64 : Shape := ⟨2, ![128, 64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S32x64 : Shape := ⟨2, ![32, 64]⟩
abbrev S_ : Shape := ⟨0, ![]⟩
abbrev S800000x1 : Shape := ⟨2, ![800000, 1]⟩
abbrev S800000x192 : Shape := ⟨2, ![800000, 192]⟩
abbrev S4000x64 : Shape := ⟨2, ![4000, 64]⟩
abbrev S4000x192 : Shape := ⟨2, ![4000, 192]⟩
abbrev S50000x192 : Shape := ⟨2, ![50000, 192]⟩
abbrev S5000x192 : Shape := ⟨2, ![5000, 192]⟩

abbrev nBuf : Space → Nat
  | .hbm => 54
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S1x32, .f32⟩
  | .hbm, ⟨3, _⟩ => ⟨S800000, .i32⟩
  | .hbm, ⟨4, _⟩ => ⟨S800000, .i32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S64, .f32⟩
  | .hbm, ⟨11, _⟩ => ⟨S128x64, .f32⟩
  | .hbm, ⟨12, _⟩ => ⟨S1x64, .f32⟩
  | .hbm, ⟨13, _⟩ => ⟨S50000x64, .f32⟩
  | .hbm, ⟨14, _⟩ => ⟨S32x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S800000x64, .f32⟩
  | .hbm, ⟨40, _⟩ => ⟨S64x64, .f32⟩
  | .hbm, ⟨41, _⟩ => ⟨S1x64, .f32⟩
  | .hbm, ⟨42, _⟩ => ⟨S800000x64, .f32⟩
  | .hbm, ⟨43, _⟩ => ⟨S800000x192, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S50000x64, .f32⟩
  | .hbm, ⟨53, _⟩ => ⟨S50000x192, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S4000x64, .f32⟩
  | .local _ .vmem, ⟨14, _⟩ => ⟨S4000x64, .f32⟩
  | .local _ .vmem, ⟨15, _⟩ => ⟨S4000x192, .f32⟩
  | .local _ .vmem, ⟨16, _⟩ => ⟨S4000x192, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S5000x192, .f32⟩
  | .local _ .vmem, ⟨23, _⟩ => ⟨S5000x192, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  transposes_S64x32_S32x64_1_0 : S64x32.Transposes [1, 0] S32x64
  bcast_S64_S1x64_1 : S64.BroadcastsInDim S1x64 (![1] : Fin 1 → Fin S1x64.rank)
  bcast_S_S1x64 : S_.BroadcastsInDim S1x64 (![] : Fin 0 → Fin S1x64.rank)
  bcast_S_S800000 : S_.BroadcastsInDim S800000 (![] : Fin 0 → Fin S800000.rank)
  bcast_S800000_S800000x1_0 : S800000.BroadcastsInDim S800000x1 (![0] : Fin 1 → Fin S800000x1.rank)
  transposes_S64x64_S64x64_1_0 : S64x64.Transposes [1, 0] S64x64
  inb_S4000x64_S4000x64_0_0 : ∀ a, (![0, 0] : Fin 2 → Nat) a + S4000x64.size a ≤ S4000x64.size a
  h_S4000x64 : 0 < S4000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S4000x64 : S1x64.Broadcasts S4000x64
  shapeCasts_S4000x64_S4000x64 : S4000x64.ShapeCasts S4000x64
  concatenates_S4000x64_S4000x64_S4000x64_S4000x192_d1 : Shape.Concatenates [S4000x64, S4000x64, S4000x64] S4000x192 1
  inb_S4000x192_S4000x192_0_0 : ∀ a, (![0, 0] : Fin 2 → Nat) a + S4000x192.size a ≤ S4000x192.size a
  h_S4000x192 : 0 < S4000x192.numel
  bcast_S_S50000x64 : S_.BroadcastsInDim S50000x64 (![] : Fin 0 → Fin S50000x64.rank)
  shapeCasts_S5000x64_S5000x64 : S5000x64.ShapeCasts S5000x64
  concatenates_S5000x64_S5000x64_S5000x64_S5000x192_d1 : Shape.Concatenates [S5000x64, S5000x64, S5000x64] S5000x192 1
  inb_S5000x192_S5000x192_0_0 : ∀ a, (![0, 0] : Fin 2 → Nat) a + S5000x192.size a ≤ S5000x192.size a
  h_S5000x192 : 0 < S5000x192.numel
  dot_S5000x128_S128x64_S5000x64_1_0_0_1_n_n_wf : DotDims.WF S5000x128 S128x64 S5000x64 [1] [0] [0] [1] [] []
  dot_S1x32_S32x64_S1x64_1_0_0_1_n_n_wf : DotDims.WF S1x32 S32x64 S1x64 [1] [0] [0] [1] [] []
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S800000x64.size a
  hwx1_1 : ∀ i : grid1.Coords, EltTy.bits .f32 = 32 ∨ (Rect.block (s := S800000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S800000x64.size a
  hwx1_5 : ∀ i : grid1.Coords, EltTy.bits .f32 = 32 ∨ (Rect.block (s := S800000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x192.size a ≤ S800000x192.size a
  hwx1_6 : ∀ i : grid1.Coords, EltTy.bits .f32 = 32 ∨ (Rect.block (s := S800000x192) S4000x192.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x192.size a ≤ S50000x192.size a
  hwx2_3 : ∀ i : grid2.Coords, EltTy.bits .f32 = 32 ∨ (Rect.block (s := S50000x192) S5000x192.size (cc2_transform_3 i) (hinb2_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S4000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S4000x192.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v2) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x192.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S1x32 : Shape := ⟨2, ![1, 32]⟩
abbrev S800000 : Shape := ⟨1, ![800000]⟩
abbrev S64x128 : Shape := ⟨2, ![64, 128]⟩
abbrev S64 : Shape := ⟨1, ![64]⟩
abbrev S64x64 : Shape := ⟨2, ![64, 64]⟩
abbrev S64x32 : Shape := ⟨2, ![64, 32]⟩
abbrev S128x64 : Shape := ⟨2, ![128, 64]⟩
abbrev S50000x64 : Shape := ⟨2, ![50000, 64]⟩
abbrev S1x64 : Shape := ⟨2, ![1, 64]⟩
abbrev S_ : Shape := ⟨0, ![]⟩
abbrev S32x64 : Shape := ⟨2, ![32, 64]⟩
abbrev S800000x1 : Shape := ⟨2, ![800000, 1]⟩
abbrev S50000x192 : Shape := ⟨2, ![50000, 192]⟩
abbrev S800000x192 : Shape := ⟨2, ![800000, 192]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S1x32, .f32⟩
  | .hbm, ⟨3, _⟩ => ⟨S800000, .i32⟩
  | .hbm, ⟨4, _⟩ => ⟨S800000, .i32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S64, .f32⟩
  | .hbm, ⟨11, _⟩ => ⟨S128x64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S_, .f32⟩
  | .hbm, ⟨17, _⟩ => ⟨S50000x64, .f32⟩
  | .hbm, ⟨18, _⟩ => ⟨S50000x64, .f32⟩
  | .hbm, ⟨19, _⟩ => ⟨S64x64, .f32⟩
  | .hbm, ⟨20, _⟩ => ⟨S800000x64, .f32⟩
  | .hbm, ⟨21, _⟩ => ⟨S1x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S800000x64, .f32⟩
  | .hbm, ⟨26, _⟩ => ⟨S800000x64, .f32⟩
  | .hbm, ⟨27, _⟩ => ⟨S32x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S_, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S50000x64, .f32⟩
  | .hbm, ⟨54, _⟩ => ⟨S50000x64, .f32⟩
  | .hbm, ⟨55, _⟩ => ⟨S50000x192, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x64, .f32⟩
  | .hbm, ⟨74, _⟩ => ⟨S800000x64, .f32⟩
  | .hbm, ⟨75, _⟩ => ⟨S800000x64, .f32⟩
  | .hbm, ⟨76, _⟩ => ⟨S800000x192, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_cst : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call2_cst : Ref sig .tc := ⟨.hbm, 31, rfl⟩
abbrev main_call2_v0 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_3 : Ref sig .tc := ⟨.hbm, 56, rfl⟩
abbrev main_v34 : Ref sig .tc := ⟨.hbm, 57, rfl⟩
abbrev main_v35 : Ref sig .tc := ⟨.hbm, 58, rfl⟩
abbrev main_c_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_5 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x64_S64x64_1_0 : S64x64.Transposes [1, 0] S64x64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S64x32_S32x64_1_0 : S64x32.Transposes [1, 0] S32x64
  bcast_S_S1x64 : S_.BroadcastsInDim S1x64 (![] : Fin 0 → Fin S1x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S50000x64_S50000x64_S50000x64_S50000x192_d1 : Shape.Concatenates [S50000x64, S50000x64, S50000x64] S50000x192 1
  concatenates_S800000x64_S800000x64_S800000x64_S800000x192_d1 : Shape.Concatenates [S800000x64, S800000x64, S800000x64] S800000x192 1
  dot_S50000x128_S128x64_S50000x64_1_0_0_1_n_n_wf : DotDims.WF S50000x128 S128x64 S50000x64 [1] [0] [0] [1] [] []
  dot_S800000x64_S64x64_S800000x64_1_0_0_1_n_n_wf : DotDims.WF S800000x64 S64x64 S800000x64 [1] [0] [0] [1] [] []
  dot_S1x32_S32x64_S1x64_1_0_0_1_n_n_wf : DotDims.WF S1x32 S32x64 S1x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.Plumb.lean ====
/-
  What each stretch of host operations of the kernel program leaves in the buffers the regions read, from ANY buffer
  contents `W` at the stretch's start, and which buffers a stretch leaves alone.

  * before region 0: the node weight transposed, the node bias as a 1 × 64 row;
  * between regions 0 and 1: the global row `relu (g · W_gᵀ + b_g)` (two stretches: the affine part, then the maximum
    with the zero splat), the per-edge sum of the two gathered endpoint rows of the node embedding, the edge weight
    transposed and the edge bias as a row;
  * between regions 1 and 2: the sum of the two scatter-adds of the edge embedding into zero arrays.
-/
import proofs.«119197_j18451179504039_2_alg».proof.Proof.Gen.KernelIdeal.Launch
import Idealize.ShloMosaic.Lib.StableHlo.Run

set_option maxRecDepth 16384

noncomputable section

namespace Cert.KernelIdeal.Plumb

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

/-! ## The index wrap and the shared host chains, as functions of their operands -/

/-- A negative index word wrapped by the node count: `s < 0 ? s + 50000 : s`, word by word. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The index words as a column `[800000, 1]`. -/
def col (s : IVec S800000 32) : IVec S800000x1 32 := broadcastInDim S800000x1 ![0] bcast_S800000_S800000x1_0 s

/-- The zero array `[50000, 64]`. -/
def zeros : FVec F S50000x64 .f32 := broadcastInDim S50000x64 ![] bcast_S_S50000x64 (constant S_ .f32 0x00000000#32)

/-- Per edge, the sum of the node rows at its two (wrapped) endpoints. -/
def nodeToEdge (ne : FVec F S50000x64 .f32) (src dst : IVec S800000 32) : FVec F S800000x64 .f32 :=
  addf (Host.gather gather_S50000x64_S800000x1_S800000x64_1_0_n_n_0_1_164 ne (col (wrap src)))
    (Host.gather gather_S50000x64_S800000x1_S800000x64_1_0_n_n_0_1_164 ne (col (wrap dst)))

/-- Per node, the edge rows scattered by source plus the edge rows scattered by destination, each into a zero array. -/
def edgeToNodes (ee : FVec F S800000x64 .f32) (src dst : IVec S800000 32) : FVec F S50000x64 .f32 :=
  addf (Host.scatterAdd scatter_S50000x64_S800000x1_S800000x64_1_0_0_1 zeros (col src) ee)
    (Host.scatterAdd scatter_S50000x64_S800000x1_S800000x64_1_0_0_1 zeros (col dst) ee)

/-- The affine part of the global row: `g · W_gᵀ + b_g`. -/
def globalAffine (gf : FVec F S1x32 .f32) (wg : FVec F S64x32 .f32) (bg : FVec F S64 .f32) : FVec F S1x64 .f32 :=
  addf (Host.dotGeneral dot_S1x32_S32x64_S1x64_1_0_0_1_n_n none gf (transpose S32x64 [1, 0] wg transposes_S64x32_S32x64_1_0))
    (broadcastInDim S1x64 ![1] bcast_S64_S1x64_1 bg)

/-- The global row: the maximum of its affine part with the zero splat. -/
def globalRow (gf : FVec F S1x32 .f32) (wg : FVec F S64x32 .f32) (bg : FVec F S64 .f32) : FVec F S1x64 .f32 :=
  maximumf (globalAffine gf wg bg) (broadcastInDim S1x64 ![] bcast_S_S1x64 (constant S_ .f32 0x00000000#32))

/-! ## What the stretches write -/

theorem h0_v0 : after hostOps0 W (Proc.devRef .tc main_v0)
    = transpose S128x64 [1, 0] (W (Proc.devRef .tc main_arg5)) transposes_S64x128_S128x64_1_0 := by
  after_results
theorem h0_v1 : after hostOps0 W (Proc.devRef .tc main_v1)
    = shapeCast S1x64 (W (Proc.devRef .tc main_arg6)) shapeCasts_S64_S1x64 := by
  after_results; rfl
theorem h1_v6 : after hostOps1 W (Proc.devRef .tc main_v6)
    = globalAffine (W (Proc.devRef .tc main_arg2)) (W (Proc.devRef .tc main_arg9)) (W (Proc.devRef .tc main_arg10)) := by
  after_results; rfl
theorem h11_v7 : after hostOps1_1 W (Proc.devRef .tc main_v7)
    = maximumf (W (Proc.devRef .tc main_v6)) (broadcastInDim S1x64 ![] bcast_S_S1x64 (constant S_ .f32 0x00000000#32)) := by
  after_results; rfl
set_option maxHeartbeats 4000000 in
theorem h12_v22 : after hostOps1_2 W (Proc.devRef .tc main_v22)
    = nodeToEdge (W (Proc.devRef .tc main_v2)) (W (Proc.devRef .tc main_arg3)) (W (Proc.devRef .tc main_arg4)) := by
  after_results_simp <;> rfl
theorem h12_v23 : after hostOps1_2 W (Proc.devRef .tc main_v23)
    = transpose S64x64 [1, 0] (W (Proc.devRef .tc main_arg7)) transposes_S64x64_S64x64_1_0 := by
  after_results
theorem h12_v24 : after hostOps1_2 W (Proc.devRef .tc main_v24)
    = shapeCast S1x64 (W (Proc.devRef .tc main_arg8)) shapeCasts_S64_S1x64 := by
  after_results; rfl
theorem h2_v32 : after hostOps2 W (Proc.devRef .tc main_v32)
    = edgeToNodes (W (Proc.devRef .tc main_v25_0)) (W (Proc.devRef .tc main_arg3)) (W (Proc.devRef .tc main_arg4)) := by
  after_results; rfl

/-! ## What the stretches leave alone -/

/-- The buffers each stretch writes. -/
def wr0 : List (Ref sig .tc) := [main_v0, main_v1]
def wr1 : List (Ref sig .tc) := [main_v3, main_v4, main_v5, main_v6]
def wr11 : List (Ref sig .tc) := [main_call0_cst, main_call0_v0, main_v7]
def wr12 : List (Ref sig .tc) := [main_c, main_v8, main_v9, main_c_0, main_v10, main_v11, main_v12, main_v13, main_v14,
  main_c_1, main_v15, main_v16, main_c_2, main_v17, main_v18, main_v19, main_v20, main_v21, main_v22, main_v23, main_v24]
def wr2 : List (Ref sig .tc) := [main_cst, main_v26, main_v27, main_v28, main_cst_3, main_v29, main_v30, main_v31, main_v32]

theorem keep0 (r : Ref sig .tc) (hr : r ∉ wr0) : after hostOps0 W (Proc.devRef .tc r) = W (Proc.devRef .tc r) :=
  after_of_writes_sub (W := wr0) hostOps0 W (by
    simp only [hostOps0, wr0, List.Forall, nullary_writes, unary_writes, binary_writes, ternary_writes, reshape_writes]
    decide) hr
theorem keep1 (r : Ref sig .tc) (hr : r ∉ wr1) : after hostOps1 W (Proc.devRef .tc r) = W (Proc.devRef .tc r) :=
  after_of_writes_sub (W := wr1) hostOps1 W (by
    simp only [hostOps1, wr1, List.Forall, nullary_writes, unary_writes, binary_writes, ternary_writes, reshape_writes]
    decide) hr
theorem keep11 (r : Ref sig .tc) (hr : r ∉ wr11) : after hostOps1_1 W (Proc.devRef .tc r) = W (Proc.devRef .tc r) :=
  after_of_writes_sub (W := wr11) hostOps1_1 W (by
    simp only [hostOps1_1, wr11, List.Forall, nullary_writes, unary_writes, binary_writes, ternary_writes, reshape_writes]
    decide) hr
theorem keep12 (r : Ref sig .tc) (hr : r ∉ wr12) : after hostOps1_2 W (Proc.devRef .tc r) = W (Proc.devRef .tc r) :=
  after_of_writes_sub (W := wr12) hostOps1_2 W (by
    simp only [hostOps1_2, wr12, List.Forall, nullary_writes, unary_writes, binary_writes, ternary_writes, reshape_writes]
    decide) hr
theorem keep2 (r : Ref sig .tc) (hr : r ∉ wr2) : after hostOps2 W (Proc.devRef .tc r) = W (Proc.devRef .tc r) :=
  after_of_writes_sub (W := wr2) hostOps2 W (by
    simp only [hostOps2, wr2, List.Forall, nullary_writes, unary_writes, binary_writes, ternary_writes, reshape_writes]
    decide) hr

end Cert.KernelIdeal.Plumb

end
-- ==== Proof.KernelRun.lean ====
/-
  The kernel program's run with its two results named.

  @main is three pallas regions among stretches of host operations.  The buffer contents at each boundary form a
  fold from the launch memory: a host stretch applies its operations, a region leaves each of its arrays at what its
  write-backs fold to and every other buffer as it was.  Every weakly fair execution terminates without a fault in a
  state whose unscoped buffers hold the last boundary's contents; read at the two result buffers and at the eleven
  arguments this is the statement below.
-/
import proofs.«119197_j18451179504039_2_alg».proof.Proof.Gen.KernelIdeal.Frame
import proofs.«119197_j18451179504039_2_alg».proof.Proof.Plumb

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the node result and the edge result at
    the last boundary's contents and the argument arrays as launched. -/
theorem run_results : θ_run defs (onTc (τ := τ) (main (F := F))) ⟨m, fun _ => 0, ρ⟩ (fun r => ∀ c : Dev nD,
      r.2.mem ((c.tc : Thread nD τ).loc main_v33) = W8 m ρ c (Proc.devRef .tc main_v33)
      ∧ r.2.mem ((c.tc : Thread nD τ).loc main_v25_1) = W8 m ρ c (Proc.devRef .tc main_v25_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v33 (by decide)),
       h c _ (mem_uc main_v25_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

/-! ## The boundary contents at the buffers the regions read

  `W1 … W8` are the buffer contents at the eight segment boundaries.  A buffer that no stretch writes and that is not
  an array of a region still holds its launch contents; the node embedding (region 0's output) is read by the gathers
  and by region 2; the edge embedding (region 1's first output) by the scatter-adds; the global row by regions 1 and 2. -/

open Cert.KernelIdeal.Plumb (wr0 wr1 wr11 wr12 wr2 keep0 keep1 keep11 keep12 keep2)

theorem W1_keep (c : Dev nD) (r : Ref sig .tc) (h0 : r ∉ wr0) :
    W1 m ρ c (Proc.devRef .tc r) = m ((c : Thread nD τ).loc r) :=
  (keep0 (W0 m ρ c) r h0).trans rfl
theorem W2_keep (c : Dev nD) (r : Ref sig .tc) (h0 : r ∉ wr0) (hr0 : ∀ w, Pipeline.arrRef spec0 w ≠ r) :
    W2 m ρ c (Proc.devRef .tc r) = m ((c : Thread nD τ).loc r) :=
  (W2_of_ne m ρ c r hr0).trans (W1_keep m ρ c r h0)
theorem W3_keep (c : Dev nD) (r : Ref sig .tc) (h0 : r ∉ wr0) (hr0 : ∀ w, Pipeline.arrRef spec0 w ≠ r) (h1 : r ∉ wr1) :
    W3 m ρ c (Proc.devRef .tc r) = m ((c : Thread nD τ).loc r) :=
  (keep1 (W2 m ρ c) r h1).trans (W2_keep m ρ c r h0 hr0)
theorem W4_keep (c : Dev nD) (r : Ref sig .tc) (h0 : r ∉ wr0) (hr0 : ∀ w, Pipeline.arrRef spec0 w ≠ r) (h1 : r ∉ wr1)
    (h11 : r ∉ wr11) : W4 m ρ c (Proc.devRef .tc r) = m ((c : Thread nD τ).loc r) :=
  (keep11 (W3 m ρ c) r h11).trans (W3_keep m ρ c r h0 hr0 h1)
theorem W5_keep (c : Dev nD) (r : Ref sig .tc) (h0 : r ∉ wr0) (hr0 : ∀ w, Pipeline.arrRef spec0 w ≠ r) (h1 : r ∉ wr1)
    (h11 : r ∉ wr11) (h12 : r ∉ wr12) : W5 m ρ c (Proc.devRef .tc r) = m ((c : Thread nD τ).loc r) :=
  (keep12 (W4 m ρ c) r h12).trans (W4_keep m ρ c r h0 hr0 h1 h11)
theorem W6_keep (c : Dev nD) (r : Ref sig .tc) (h0 : r ∉ wr0) (hr0 : ∀ w, Pipeline.arrRef spec0 w ≠ r) (h1 : r ∉ wr1)
    (h11 : r ∉ wr11) (h12 : r ∉ wr12) (hr1 : ∀ w, Pipeline.arrRef spec1 w ≠ r) :
    W6 m ρ c (Proc.devRef .tc r) = m ((c : Thread nD τ).loc r) :=
  (W6_of_ne m ρ c r hr1).trans (W5_keep m ρ c r h0 hr0 h1 h11 h12)

/-- The node embedding: region 0's output array after its write-backs. -/
abbrev nodeEmb (c : Dev nD) := (dat0 (V1 m ρ) c).arrAt 3 cfg0.N
/-- The edge embedding: region 1's first output array after its write-backs. -/
abbrev edgeEmb (c : Dev nD) := (dat1 (V5 m ρ) c).arrAt 5 cfg1.N

theorem W2_v2 (c : Dev nD) : W2 m ρ c (Proc.devRef .tc main_v2) = nodeEmb m ρ c := W2_arr m ρ c 3
theorem W4_v2 (c : Dev nD) : W4 m ρ c (Proc.devRef .tc main_v2) = nodeEmb m ρ c :=
  (keep11 (W3 m ρ c) main_v2 (by decide)).trans ((keep1 (W2 m ρ c) main_v2 (by decide)).trans (W2_v2 m ρ c))
theorem W7_v2 (c : Dev nD) : W7 m ρ c (Proc.devRef .tc main_v2) = nodeEmb m ρ c :=
  (keep2 (W6 m ρ c) main_v2 (by decide)).trans ((W6_of_ne m ρ c main_v2 (by decide)).trans
    ((keep12 (W4 m ρ c) main_v2 (by decide)).trans (W4_v2 m ρ c)))

/-- The global row as the kernel program computes it, from the launch contents. -/
abbrev globalRowK (c : Dev nD) : FVec F S1x64 .f32 :=
  Plumb.globalRow (m ((c : Thread nD τ).loc main_arg2)) (m ((c : Thread nD τ).loc main_arg9)) (m ((c : Thread nD τ).loc main_arg10))

theorem W3_v6 (c : Dev nD) : W3 m ρ c (Proc.devRef .tc main_v6)
    = Plumb.globalAffine (m ((c : Thread nD τ).loc main_arg2)) (m ((c : Thread nD τ).loc main_arg9)) (m ((c : Thread nD τ).loc main_arg10)) := by
  refine (Plumb.h1_v6 (W2 m ρ c)).trans ?_
  rw [W2_keep m ρ c main_arg2 (by decide) (by decide), W2_keep m ρ c main_arg9 (by decide) (by decide),
    W2_keep m ρ c main_arg10 (by decide) (by decide)]
theorem W4_v7 (c : Dev nD) : W4 m ρ c (Proc.devRef .tc main_v7) = globalRowK m c := by
  refine (Plumb.h11_v7 (W3 m ρ c)).trans ?_
  rw [W3_v6 m ρ c]; rfl
theorem W5_v7 (c : Dev nD) : W5 m ρ c (Proc.devRef .tc main_v7) = globalRowK m c :=
  (keep12 (W4 m ρ c) main_v7 (by decide)).trans (W4_v7 m ρ c)
theorem W6_v7 (c : Dev nD) : W6 m ρ c (Proc.devRef .tc main_v7) = globalRowK m c :=
  (W6_arr m ρ c 4).trans (((dat1 (V5 m ρ) c).arrAt_in 4 rfl _).trans ((A_eq1 (V5 m ρ) c 4).trans (W5_v7 m ρ c)))
theorem W7_v7 (c : Dev nD) : W7 m ρ c (Proc.devRef .tc main_v7) = globalRowK m c :=
  (keep2 (W6 m ρ c) main_v7 (by decide)).trans (W6_v7 m ρ c)

/-! ### Region 0 is entered with the node features, the node weight transposed and the node bias as a row -/

theorem V1_a0 (c : Dev nD) : V1 m ρ c (Pipeline.arrRef spec0 0) = m ((c : Thread nD τ).loc main_arg0) :=
  W1_keep m ρ c main_arg0 (by decide)
theorem V1_a1 (c : Dev nD) : V1 m ρ c (Pipeline.arrRef spec0 1)
    = transpose S128x64 [1, 0] (m ((c : Thread nD τ).loc main_arg5)) transposes_S64x128_S128x64_1_0 :=
  (Plumb.h0_v0 (W0 m ρ c)).trans rfl
theorem V1_a2 (c : Dev nD) : V1 m ρ c (Pipeline.arrRef spec0 2)
    = shapeCast S1x64 (m ((c : Thread nD τ).loc main_arg6)) shapeCasts_S64_S1x64 :=
  (Plumb.h0_v1 (W0 m ρ c)).trans rfl

/-! ### Region 1 is entered with the edge features, the gathered endpoint sums, the edge weight transposed, the edge
    bias as a row and the global row -/

theorem V5_a0 (c : Dev nD) : V5 m ρ c (Pipeline.arrRef spec1 0) = m ((c : Thread nD τ).loc main_arg1) :=
  W5_keep m ρ c main_arg1 (by decide) (by decide) (by decide) (by decide) (by decide)
theorem V5_a1 (c : Dev nD) : V5 m ρ c (Pipeline.arrRef spec1 1)
    = Plumb.nodeToEdge (nodeEmb m ρ c) (m ((c : Thread nD τ).loc main_arg3)) (m ((c : Thread nD τ).loc main_arg4)) := by
  refine (Plumb.h12_v22 (W4 m ρ c)).trans ?_
  rw [W4_v2 m ρ c, W4_keep m ρ c main_arg3 (by decide) (by decide) (by decide) (by decide),
    W4_keep m ρ c main_arg4 (by decide) (by decide) (by decide) (by decide)]
theorem V5_a2 (c : Dev nD) : V5 m ρ c (Pipeline.arrRef spec1 2)
    = transpose S64x64 [1, 0] (m ((c : Thread nD τ).loc main_arg7)) transposes_S64x64_S64x64_1_0 := by
  refine (Plumb.h12_v23 (W4 m ρ c)).trans ?_
  rw [W4_keep m ρ c main_arg7 (by decide) (by decide) (by decide) (by decide)]
theorem V5_a3 (c : Dev nD) : V5 m ρ c (Pipeline.arrRef spec1 3)
    = shapeCast S1x64 (m ((c : Thread nD τ).loc main_arg8)) shapeCasts_S64_S1x64 := by
  refine (Plumb.h12_v24 (W4 m ρ c)).trans ?_
  rw [W4_keep m ρ c main_arg8 (by decide) (by decide) (by decide) (by decide)]
theorem V5_a4 (c : Dev nD) : V5 m ρ c (Pipeline.arrRef spec1 4) = globalRowK m c := W5_v7 m ρ c

/-! ### Region 2 is entered with the node embedding, the scattered edge embedding and the global row -/

theorem V7_a0 (c : Dev nD) : V7 m ρ c (Pipeline.arrRef spec2 0) = nodeEmb m ρ c := W7_v2 m ρ c
theorem V7_a1 (c : Dev nD) : V7 m ρ c (Pipeline.arrRef spec2 1)
    = Plumb.edgeToNodes (edgeEmb m ρ c) (m ((c : Thread nD τ).loc main_arg3)) (m ((c : Thread nD τ).loc main_arg4)) := by
  refine (Plumb.h2_v32 (W6 m ρ c)).trans ?_
  rw [show W6 m ρ c (Proc.devRef .tc main_v25_0) = edgeEmb m ρ c from W6_arr m ρ c 5,
    W6_keep m ρ c main_arg3 (by decide) (by decide) (by decide) (by decide) (by decide) (by decide),
    W6_keep m ρ c main_arg4 (by decide) (by decide) (by decide) (by decide) (by decide) (by decide)]
theorem V7_a2 (c : Dev nD) : V7 m ρ c (Pipeline.arrRef spec2 2) = globalRowK m c := W7_v7 m ρ c

/-! ### The two results at the last boundary -/

theorem W8_v33 (c : Dev nD) : W8 m ρ c (Proc.devRef .tc main_v33) = (dat2 (V7 m ρ) c).arrAt 3 cfg2.N := W8_arr m ρ c 3
theorem W8_v25_1 (c : Dev nD) : W8 m ρ c (Proc.devRef .tc main_v25_1) = (dat1 (V5 m ρ) c).arrAt 6 cfg1.N :=
  (W8_of_ne m ρ c main_v25_1 (by decide)).trans ((keep2 (W6 m ρ c) main_v25_1 (by decide)).trans (W6_arr m ρ c 6))

end Cert.KernelIdeal.RunValue

end
-- ==== Proof.Spec.lean ====
/-
  The mathematics of the message-passing layer, index by index, over the extended reals.

  Three pure functions, free of any program:
  * `linRelu`   — one entry of a linear layer followed by relu, `max (Σ_c x(i,c)·W(k,c) + b(k)) 0`,
                  the weight matrix in the torch convention (row `k` holds output feature `k`);
  * `linReluT`  — the same entry when the weights arrive already transposed (`wt(c,k)`) and the bias as a
                  `1 × 64` row;
  * `cat3`      — one entry of the row-wise concatenation `[A | B | g]` of two `n × 64` arrays and a
                  `1 × 64` row repeated on every row: columns `0..63` come from `A`, `64..127` from `B`,
                  `128..191` from the row `g`.
-/
import Idealize.ShloMosaic.PureOps.Ideal
import Idealize.ShloMosaic.Lib.ValueIdx

noncomputable section

namespace Cert.Spec

open Idealize.ShloMosaic Idealize.ShloMosaic.ValueIdx

/-- An `a × b` array of extended reals, indexed as the value library indexes a rank-2 shape. -/
abbrev Arr (a b : ℕ) : Type := (⟨2, ![a, b]⟩ : Shape).Idx → EReal

/-- A vector of `a` extended reals. -/
abbrev Vec1 (a : ℕ) : Type := (⟨1, ![a]⟩ : Shape).Idx → EReal

/-- Entry `(i, k)` of `relu (x · Wᵀ + b)`: the weight `W` is `64 × K` (row `k` = output feature `k`). -/
def linRelu {n K : ℕ} (x : Arr n K) (W : Arr 64 K) (b : Vec1 64) (i : Fin n) (k : Fin 64) : EReal :=
  max ((∑ c : Fin K, x (ix2 i c) * W (ix2 k c)) + b (ix1 k)) 0

/-- Entry `(i, k)` of `relu (x · wt + b2)`: the weight already transposed (`K × 64`), the bias a `1 × 64` row. -/
def linReluT {n K : ℕ} (x : Arr n K) (wt : Arr K 64) (b2 : Arr 1 64) (i : Fin n) (k : Fin 64) : EReal :=
  max ((∑ c : Fin K, x (ix2 i c) * wt (ix2 c k)) + b2 (ix2 0 k)) 0

/-- With `wt` the transpose of `W` and `b2` the bias as a row, the two spellings are one number. -/
theorem linReluT_eq {n K : ℕ} (x : Arr n K) (W : Arr 64 K) (b : Vec1 64) (wt : Arr K 64) (b2 : Arr 1 64)
    (hw : ∀ (c : Fin K) (k : Fin 64), wt (ix2 c k) = W (ix2 k c)) (hb : ∀ k : Fin 64, b2 (ix2 0 k) = b (ix1 k))
    (i : Fin n) (k : Fin 64) : linReluT x wt b2 i k = linRelu x W b i k := by
  unfold linReluT linRelu
  rw [hb k]
  congr 2
  exact Finset.sum_congr rfl fun c _ => by rw [hw c k]

/-- Entry `(i, j)` of the `n × 192` array `[A | B | g]`. -/
def cat3 {n : ℕ} (A B : Arr n 64) (g : Arr 1 64) (i : Fin n) (j : Fin 192) : EReal :=
  if h : j.val < 64 then A (ix2 i ⟨j.val, h⟩)
  else if h2 : j.val < 128 then B (ix2 i ⟨j.val - 64, by omega⟩)
  else g (ix2 0 ⟨j.val - 128, by omega⟩)

/-- `cat3` depends on its three pieces only through their entries. -/
theorem cat3_congr {n : ℕ} {A A' B B' : Arr n 64} {g g' : Arr 1 64}
    (hA : ∀ (i : Fin n) (k : Fin 64), A (ix2 i k) = A' (ix2 i k))
    (hB : ∀ (i : Fin n) (k : Fin 64), B (ix2 i k) = B' (ix2 i k))
    (hg : ∀ k : Fin 64, g (ix2 0 k) = g' (ix2 0 k)) (i : Fin n) (j : Fin 192) :
    cat3 A B g i j = cat3 A' B' g' i j := by
  unfold cat3
  split
  · exact hA _ _
  · split
    · exact hB _ _
    · exact hg _

end Cert.Spec

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.RegionLin.lean ====
/-
  The two linear-layer blocks of the kernel, index by index, over the extended reals.

  * A block's payload: narrowing and widening of the number format and a reshape to the same shape are the
    identity; the matrix-unit product accumulated into the zero splat, read at (p, k), is Σ_c lhs(p,c)·rhs(c,k);
    the one-row bias broadcast down the rows reads the row at (0, k); the relu is the maximum with the constant 0.
    So the payload at (p, k) is the specification's entry `linReluT` of the block's three operands.
  * From payload to array: block t of the output holds rows t·R … t·R + R − 1; its entry is the payload of the
    operand blocks at the same point, which are the same rows of the data array and the whole weight and bias
    arrays. The blocks cover the array, so every entry of the array is the specification's entry.
-/
import proofs.«119197_j18451179504039_2_alg».proof.Proof.Gen.KernelIdeal.Frame
import proofs.«119197_j18451179504039_2_alg».proof.Proof.Spec
import proofs.«119197_j18451179504039_2_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionLin

open Idealize.ShloMosaic Idealize.ShloMosaic.TcCoe Idealize.ShloMosaic.ValueIdx Idealize.SL.Sem
open Idealize.ShloMosaic.Pipeline (Dat Cfg Window)

/-! ## The payloads at an entry -/

/-- The 5000 × 128 by 128 × 64 block: the payload at (p, k) is the linear layer's entry. -/
theorem k0_pay1_apply (x0 : Vec Ideal S5000x128 .f32) (x1 : Vec Ideal S128x64 .f32) (x2 : Vec Ideal S1x64 .f32)
    (p : Fin 5000) (k : Fin 64) :
    Gen.k0_pay1 (F := Ideal) x0 x1 x2 (ix2 p k) = Cert.Spec.linReluT (n := 5000) (K := 128) x0 x1 x2 p k := by
  unfold Gen.k0_pay1 Cert.Spec.linReluT
  rw [maximumf_apply, addf_apply, broadcast_apply, broadcastTo_1b_ab_apply, shapeCast_self, shapeCast_self]
  refine congrArg₂ max (congrArg (· + x2 (ix2 0 k)) ?_) Ideal.ofBits_zero_f32
  exact Cert.LibPlainProduct.matmul_zero_plain_apply (M := 5000) (K := 128) (N := 64)
    (dot_S5000x128_S128x64_S5000x64_1_0_0_1_n_n).wf none
    (truncf .bf16 x0 Gen.bitsLt_bf16_f32) (truncf .bf16 x1 Gen.bitsLt_bf16_f32) p k

/-- The 4000 × 64 by 64 × 64 block: the payload at (p, k) is the linear layer's entry. -/
theorem k1_pay1_apply (x0 : Vec Ideal S4000x64 .f32) (x2 : Vec Ideal S64x64 .f32) (x3 : Vec Ideal S1x64 .f32)
    (p : Fin 4000) (k : Fin 64) :
    Gen.k1_pay1 (F := Ideal) x0 x2 x3 (ix2 p k) = Cert.Spec.linReluT (n := 4000) (K := 64) x0 x2 x3 p k := by
  unfold Gen.k1_pay1 Cert.Spec.linReluT
  rw [maximumf_apply, addf_apply, broadcast_apply, broadcastTo_1b_ab_apply, shapeCast_self, shapeCast_self]
  refine congrArg₂ max (congrArg (· + x3 (ix2 0 k)) ?_) Ideal.ofBits_zero_f32
  exact Cert.LibPlainProduct.matmul_zero_plain_apply (M := 4000) (K := 64) (N := 64)
    (dot_S4000x64_S64x64_S4000x64_1_0_0_1_n_n).wf none
    (truncf .bf16 x0 Gen.bitsLt_bf16_f32) (truncf .bf16 x2 Gen.bitsLt_bf16_f32) p k

/-! ## From payload to array: the 50000-row layer, in ten blocks of 5000 rows -/

open Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the data and result blocks at point t are block t down the
    rows, the weight and bias blocks are the whole arrays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_N0 (t : Fin cfg0.N) : t.val < 10 := by
  have h : t.val < cfg0.N := t.isLt; have h10 : cfg0.N = 10 := N_0; omega

/-- The data block at point t is rows 5000 t … 5000 t + 4999 of the data array. -/
theorem iblk0_0_apply (c : Dev nD) (t : Fin cfg0.N) (p : Fin 5000) (cc : Fin 128) :
    (iblk0 V c 0 t : Vec Ideal S5000x128 .f32) (ix2 p cc)
      = (V c (Pipeline.arrRef spec0 0) : S50000x128.Idx → Elt Ideal .f32)
          (ix2 ⟨t.val * 5000 + p.val, by have := lt_N0 t; omega⟩ cc) := by
  obtain ⟨e0, e1, -⟩ := idx_facts0 t
  unfold iblk0
  rw [View.read_apply]
  show (V c (Pipeline.arrRef spec0 0) : S50000x128.Idx → Elt Ideal .f32) _ = _
  refine congrArg _ ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * cc.val = cc.val; rw [e1]; omega

/-- The weight block at every point is the whole weight array. -/
theorem iblk0_1_apply (c : Dev nD) (t : Fin cfg0.N) (cc : Fin 128) (k : Fin 64) :
    (iblk0 V c 1 t : Vec Ideal S128x64 .f32) (ix2 cc k)
      = (V c (Pipeline.arrRef spec0 1) : S128x64.Idx → Elt Ideal .f32) (ix2 cc k) := by
  obtain ⟨-, -, e0, e1, -⟩ := idx_facts0 t
  unfold iblk0
  rw [View.read_apply]
  show (V c (Pipeline.arrRef spec0 1) : S128x64.Idx → Elt Ideal .f32) _ = _
  refine congrArg _ ?_
  funext a; apply Fin.ext
  match a with
  | ⟨0, _⟩ => show win0_1.index t (0 : Fin 2) * 128 + 1 * cc.val = cc.val; rw [e0]; omega
  | ⟨1, _⟩ => show win0_1.index t (1 : Fin 2) * 64 + 1 * k.val = k.val; rw [e1]; omega

/-- The bias block at every point is the whole bias row. -/
theorem iblk0_2_apply (c : Dev nD) (t : Fin cfg0.N) (k : Fin 64) :
    (iblk0 V c 2 t : Vec Ideal S1x64 .f32) (ix2 0 k)
      = (V c (Pipeline.arrRef spec0 2) : S1x64.Idx → Elt Ideal .f32) (ix2 0 k) := by
  obtain ⟨-, -, -, -, e0, e1, -⟩ := idx_facts0 t
  unfold iblk0
  rw [View.read_apply]
  show (V c (Pipeline.arrRef spec0 2) : S1x64.Idx → Elt Ideal .f32) _ = _
  refine congrArg _ ?_
  funext a; apply Fin.ext
  match a with
  | ⟨0, _⟩ => show win0_2.index t (0 : Fin 2) * 1 + 1 * 0 = 0; rw [e0]
  | ⟨1, _⟩ => show win0_2.index t (1 : Fin 2) * 64 + 1 * k.val = k.val; rw [e1]; omega

/-- Entry (p, k) of the result block at point t sits at row 5000 t + p of the result array. -/
theorem emb0_3 (t : Fin cfg0.N) (p : Fin 5000) (k : Fin 64) :
    ((cfg0.win 3).blk t).view.emb (ix2 p k)
      = (ix2 ⟨t.val * 5000 + p.val, by have := lt_N0 t; omega⟩ k : S50000x64.Idx) := by
  obtain ⟨-, -, -, -, -, -, e0, e1⟩ := idx_facts0 t
  funext a; apply Fin.ext
  match a with
  | ⟨0, _⟩ => show win0_3.index t (0 : Fin 2) * 5000 + 1 * p.val = t.val * 5000 + p.val; rw [e0]; omega
  | ⟨1, _⟩ => show win0_3.index t (1 : Fin 2) * 64 + 1 * k.val = k.val; rw [e1]; omega

/-- What the result array ends holding: the layer's entry of the three operand arrays, at every index. -/
abbrev G0 (c : Dev nD) : S50000x64.Idx → Elt Ideal .f32 := fun j =>
  Cert.Spec.linReluT (n := 50000) (K := 128) (V c (Pipeline.arrRef spec0 0)) (V c (Pipeline.arrRef spec0 1))
    (V c (Pipeline.arrRef spec0 2)) (j 0) (j 1)

/-- What point t writes back is block t of that array. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  funext y
  obtain ⟨p, k, rfl⟩ : ∃ (p : Fin 5000) (k : Fin 64), y = ix2 p k := ⟨y 0, y 1, eq_ix2 (n0 := 5000) (n1 := 64) y⟩
  refine (k0_pay1_apply _ _ _ p k).trans ?_
  show _ = G0 V c (((cfg0.win 3).blk t).view.emb (ix2 p k))
  rw [emb0_3]
  show Cert.Spec.linReluT (n := 5000) (K := 128) _ _ _ p k = Cert.Spec.linReluT (n := 50000) (K := 128) _ _ _ _ k
  unfold Cert.Spec.linReluT
  refine congrArg₂ max (congrArg₂ (· + ·) (Finset.sum_congr rfl fun cc _ => ?_) (iblk0_2_apply V c t k)) rfl
  rw [iblk0_0_apply, iblk0_1_apply]

/-- An index of the result array is in point t's block iff each coordinate is in the block's range on its axis. -/
theorem mem_blk0_3 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v2).slice (win0_3.rect t)).set ↔ _
  rw [View.set_slice_whole, Rect.mem_set_unit]
  exact Iff.rfl

/-- Row r of the result array is in block r / 5000. -/
theorem covered0 (i : S50000x64.Idx) :
    ∃ t : Fin cfg0.N, (cfg0.win 3).flush t = true ∧ i ∈ ((cfg0.win 3).blk t).view.set := by
  have hi0 : (i 0).val < 50000 := idx2_lt0 i
  have hi1 : (i 1).val < 64 := idx2_lt1 i
  have hN : cfg0.N = 10 := N_0
  obtain ⟨t, ht⟩ : ∃ t : Fin cfg0.N, t.val = (i 0).val / 5000 := ⟨⟨(i 0).val / 5000, by omega⟩, rfl⟩
  refine ⟨t, flush0_3 t, ?_⟩
  obtain ⟨-, -, -, -, -, -, e0, e1⟩ := idx_facts0 t
  rw [mem_blk0_3]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 64 ≤ (i 1).val ∧ (i 1).val < win0_3.index t (1 : Fin 2) * 64 + 64
    rw [e1]; omega

/-- THE RESULT ARRAY after the region: the layer's entry at every index. -/
theorem final0 (c : Dev nD) (i : Fin 50000) (k : Fin 64) :
    (Gen.dat0 (F := Ideal) V c).arrAt 3 cfg0.N (ix2 i k)
      = Cert.Spec.linReluT (n := 50000) (K := 128) (V c (Pipeline.arrRef spec0 0)) (V c (Pipeline.arrRef spec0 1))
          (V c (Pipeline.arrRef spec0 2)) i k :=
  congrFun ((dat0 V c).arrAt_eq_of_cover 3 (G0 V c) (fun t _ => flushed0_eq V c t) (covered0)) (ix2 i k)

/-! ## From payload to array: the 800000-row layer, in two hundred blocks of 4000 rows -/

/-- The printed index maps, decided over the grid: the data and result blocks at point t are block t down the
    rows, the weight and bias blocks are the whole arrays. -/
theorem idx_facts1 : ∀ t : Fin cfg1.N,
    win1_0.index t (0 : Fin 2) = t.val ∧ win1_0.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_5.index t (0 : Fin 2) = t.val ∧ win1_5.index t (1 : Fin 2) = 0 :=
  (by decide +kernel : ∀ t : Fin grid1.N, _)

theorem lt_N1 (t : Fin cfg1.N) : t.val < 200 := by
  have h : t.val < cfg1.N := t.isLt; have h200 : cfg1.N = 200 := N_1; omega

/-- The data block at point t is rows 4000 t … 4000 t + 3999 of the data array. -/
theorem iblk1_0_apply (c : Dev nD) (t : Fin cfg1.N) (p : Fin 4000) (cc : Fin 64) :
    (iblk1 V c 0 t : Vec Ideal S4000x64 .f32) (ix2 p cc)
      = (V c (Pipeline.arrRef spec1 0) : S800000x64.Idx → Elt Ideal .f32)
          (ix2 ⟨t.val * 4000 + p.val, by have := lt_N1 t; omega⟩ cc) := by
  obtain ⟨e0, e1, -⟩ := idx_facts1 t
  unfold iblk1
  rw [View.read_apply]
  show (V c (Pipeline.arrRef spec1 0) : S800000x64.Idx → Elt Ideal .f32) _ = _
  refine congrArg _ ?_
  funext a; apply Fin.ext
  match a with
  | ⟨0, _⟩ => show win1_0.index t (0 : Fin 2) * 4000 + 1 * p.val = t.val * 4000 + p.val; rw [e0]; omega
  | ⟨1, _⟩ => show win1_0.index t (1 : Fin 2) * 64 + 1 * cc.val = cc.val; rw [e1]; omega

/-- The weight block at every point is the whole weight array. -/
theorem iblk1_2_apply (c : Dev nD) (t : Fin cfg1.N) (cc : Fin 64) (k : Fin 64) :
    (iblk1 V c 2 t : Vec Ideal S64x64 .f32) (ix2 cc k)
      = (V c (Pipeline.arrRef spec1 2) : S64x64.Idx → Elt Ideal .f32) (ix2 cc k) := by
  obtain ⟨-, -, e0, e1, -⟩ := idx_facts1 t
  unfold iblk1
  rw [View.read_apply]
  show (V c (Pipeline.arrRef spec1 2) : S64x64.Idx → Elt Ideal .f32) _ = _
  refine congrArg _ ?_
  funext a; apply Fin.ext
  match a with
  | ⟨0, _⟩ => show win1_2.index t (0 : Fin 2) * 64 + 1 * cc.val = cc.val; rw [e0]; omega
  | ⟨1, _⟩ => show win1_2.index t (1 : Fin 2) * 64 + 1 * k.val = k.val; rw [e1]; omega

/-- The bias block at every point is the whole bias row. -/
theorem iblk1_3_apply (c : Dev nD) (t : Fin cfg1.N) (k : Fin 64) :
    (iblk1 V c 3 t : Vec Ideal S1x64 .f32) (ix2 0 k)
      = (V c (Pipeline.arrRef spec1 3) : S1x64.Idx → Elt Ideal .f32) (ix2 0 k) := by
  obtain ⟨-, -, -, -, e0, e1, -⟩ := idx_facts1 t
  unfold iblk1
  rw [View.read_apply]
  show (V c (Pipeline.arrRef spec1 3) : S1x64.Idx → Elt Ideal .f32) _ = _
  refine congrArg _ ?_
  funext a; apply Fin.ext
  match a with
  | ⟨0, _⟩ => show win1_3.index t (0 : Fin 2) * 1 + 1 * 0 = 0; rw [e0]
  | ⟨1, _⟩ => show win1_3.index t (1 : Fin 2) * 64 + 1 * k.val = k.val; rw [e1]; omega

/-- Entry (p, k) of the result block at point t sits at row 4000 t + p of the result array. -/
theorem emb1_5 (t : Fin cfg1.N) (p : Fin 4000) (k : Fin 64) :
    ((cfg1.win 5).blk t).view.emb (ix2 p k)
      = (ix2 ⟨t.val * 4000 + p.val, by have := lt_N1 t; omega⟩ k : S800000x64.Idx) := by
  obtain ⟨-, -, -, -, -, -, e0, e1⟩ := idx_facts1 t
  funext a; apply Fin.ext
  match a with
  | ⟨0, _⟩ => show win1_5.index t (0 : Fin 2) * 4000 + 1 * p.val = t.val * 4000 + p.val; rw [e0]; omega
  | ⟨1, _⟩ => show win1_5.index t (1 : Fin 2) * 64 + 1 * k.val = k.val; rw [e1]; omega

/-- What the result array ends holding: the layer's entry of the three operand arrays, at every index. -/
abbrev G1 (c : Dev nD) : S800000x64.Idx → Elt Ideal .f32 := fun j =>
  Cert.Spec.linReluT (n := 800000) (K := 64) (V c (Pipeline.arrRef spec1 0)) (V c (Pipeline.arrRef spec1 2))
    (V c (Pipeline.arrRef spec1 3)) (j 0) (j 1)

/-- What point t writes back is block t of that array. -/
theorem flushed1_5_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S4000x64) hz, View.ld_unit_zero (S := S64x64) hz, View.ld_unit_zero (S := S1x64) hz]
  funext y
  obtain ⟨p, k, rfl⟩ : ∃ (p : Fin 4000) (k : Fin 64), y = ix2 p k := ⟨y 0, y 1, eq_ix2 (n0 := 4000) (n1 := 64) y⟩
  refine (k1_pay1_apply _ _ _ p k).trans ?_
  show _ = G1 V c (((cfg1.win 5).blk t).view.emb (ix2 p k))
  rw [emb1_5]
  show Cert.Spec.linReluT (n := 4000) (K := 64) _ _ _ p k = Cert.Spec.linReluT (n := 800000) (K := 64) _ _ _ _ k
  unfold Cert.Spec.linReluT
  refine congrArg₂ max (congrArg₂ (· + ·) (Finset.sum_congr rfl fun cc _ => ?_) (iblk1_3_apply V c t k)) rfl
  rw [iblk1_0_apply, iblk1_2_apply]

/-- An index of the result array is in point t's block iff each coordinate is in the block's range on its axis. -/
theorem mem_blk1_5 (t : Fin cfg1.N) (i : S800000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v25_0).slice (win1_5.rect t)).set ↔ _
  rw [View.set_slice_whole, Rect.mem_set_unit]
  exact Iff.rfl

/-- Row r of the result array is in block r / 4000. -/
theorem covered1_5 (i : S800000x64.Idx) :
    ∃ t : Fin cfg1.N, (cfg1.win 5).flush t = true ∧ i ∈ ((cfg1.win 5).blk t).view.set := by
  have hi0 : (i 0).val < 800000 := idx2_lt0 i
  have hi1 : (i 1).val < 64 := idx2_lt1 i
  have hN : cfg1.N = 200 := N_1
  obtain ⟨t, ht⟩ : ∃ t : Fin cfg1.N, t.val = (i 0).val / 4000 := ⟨⟨(i 0).val / 4000, by omega⟩, rfl⟩
  refine ⟨t, flush1_5 t, ?_⟩
  obtain ⟨-, -, -, -, -, -, e0, e1⟩ := idx_facts1 t
  rw [mem_blk1_5]
  intro a
  match a with
  | ⟨0, _⟩ =>
    show win1_5.index t (0 : Fin 2) * 4000 ≤ (i 0).val ∧ (i 0).val < win1_5.index t (0 : Fin 2) * 4000 + 4000
    rw [e0, ht]; omega
  | ⟨1, _⟩ =>
    show win1_5.index t (1 : Fin 2) * 64 ≤ (i 1).val ∧ (i 1).val < win1_5.index t (1 : Fin 2) * 64 + 64
    rw [e1]; omega

/-- THE RESULT ARRAY after the region: the layer's entry at every index. -/
theorem final1_5 (c : Dev nD) (e : Fin 800000) (k : Fin 64) :
    (Gen.dat1 (F := Ideal) V c).arrAt 5 cfg1.N (ix2 e k)
      = Cert.Spec.linReluT (n := 800000) (K := 64) (V c (Pipeline.arrRef spec1 0)) (V c (Pipeline.arrRef spec1 2))
          (V c (Pipeline.arrRef spec1 3)) e k :=
  congrFun ((dat1 V c).arrAt_eq_of_cover 5 (G1 V c) (fun t _ => flushed1_5_eq V c t) (covered1_5)) (ix2 e k)

end Cert.KernelIdeal.RegionLin

end
-- ==== Proof.LibConcat3.lean ====
/-
  A three-piece concatenation along the columns, read at an index.

  Three `n × 64` arrays joined along axis 1 give an `n × 192` array whose entry `(i, j)` is the first piece at
  `(i, j)` when `j < 64`, the second piece at `(i, j - 64)` when `64 ≤ j < 128`, and the third piece at
  `(i, j - 128)` otherwise.  Each case names the piece whose span of columns holds `j` and reads the general
  "concatenation at an index" law at that piece.
-/
import Idealize.ShloMosaic.PureOps.Ideal
import Idealize.ShloMosaic.Lib.ValueIdx
import Idealize.ShloMosaic.Lib.Pipeline.Value

noncomputable section

namespace Cert.LibConcat3

open Idealize.ShloMosaic Idealize.ShloMosaic.ValueIdx

variable {α : Type}

/-- Entry `(i, j)` of `[a | b | g]` (three `n × 64` pieces along the columns), for any evidence `h` that the three
    shapes lay end to end into `n × 192`. -/
theorem concat3_apply {n : ℕ} (a b g : (⟨2, ![n, 64]⟩ : Shape).Idx → α)
    (h : Shape.Concatenates
      (([⟨⟨2, ![n, 64]⟩, a⟩, ⟨⟨2, ![n, 64]⟩, b⟩, ⟨⟨2, ![n, 64]⟩, g⟩] : List ((s : Shape) × (s.Idx → α))).map (·.1))
      ⟨2, ![n, 192]⟩ 1)
    (i : Fin n) (j : Fin 192) :
    concatenate ⟨2, ![n, 192]⟩ 1 [⟨⟨2, ![n, 64]⟩, a⟩, ⟨⟨2, ![n, 64]⟩, b⟩, ⟨⟨2, ![n, 64]⟩, g⟩] h (ix2 i j)
      = if h1 : j.val < 64 then a (ix2 i ⟨j.val, h1⟩)
        else if h2 : j.val < 128 then b (ix2 i ⟨j.val - 64, by omega⟩)
        else g (ix2 i ⟨j.val - 128, by omega⟩) := by
  have hoff : ∀ (c : Fin 64) (bb : Fin 2), bb.cast (rfl : (2 : ℕ) = 2) ≠ (1 : Fin 2) →
      ((ix2 i c : (⟨2, ![n, 64]⟩ : Shape).Idx) bb).val = ((ix2 i j : (⟨2, ![n, 192]⟩ : Shape).Idx) (bb.cast rfl)).val := by
    intro c bb hb
    match bb, hb with
    | ⟨0, _⟩, _ => rfl
    | ⟨1, _⟩, hb => exact absurd rfl hb
  split
  · next h1 =>
    exact concatenate_apply_piece (t := ⟨2, ![n, 192]⟩) 1 _ h (ix2 i j) 0 (by simp) ⟨2, ![n, 64]⟩ a rfl rfl 0 rfl
      (ix2 i ⟨j.val, h1⟩) (hoff _) (by show 0 + j.val = j.val; omega)
  · next h1 =>
    split
    · next h2 =>
      exact concatenate_apply_piece (t := ⟨2, ![n, 192]⟩) 1 _ h (ix2 i j) 1 (by simp) ⟨2, ![n, 64]⟩ b rfl rfl 64 rfl
        (ix2 i ⟨j.val - 64, by omega⟩) (hoff _) (by show 64 + (j.val - 64) = j.val; omega)
    · next h2 =>
      exact concatenate_apply_piece (t := ⟨2, ![n, 192]⟩) 1 _ h (ix2 i j) 2 (by simp) ⟨2, ![n, 64]⟩ g rfl rfl 128 rfl
        (ix2 i ⟨j.val - 128, by omega⟩) (hoff _) (by show 128 + (j.val - 128) = j.val; omega)

end Cert.LibConcat3

end
-- ==== Proof.RegionCat.lean ====
/-
  The two concatenating regions of the kernel, read index by index.

  Region 2 joins, per 5000-row block, two `5000 × 64` blocks and a `1 × 64` row repeated on every row into a
  `5000 × 192` block; region 1's second output joins, per 4000-row block, the linear-relu payload, a `4000 × 64`
  block and the repeated row.  Each payload at `(p, j)` is `Spec.cat3` of its pieces (the three-piece concatenation
  law, a same-shape cast being the identity and a row broadcast reading row 0); the row blocks tile the arrays, so
  each output array at `(i, j)` is `Spec.cat3` of the region's input arrays.
-/
import proofs.«119197_j18451179504039_2_alg».proof.Proof.Gen.KernelIdeal.Frame
import proofs.«119197_j18451179504039_2_alg».proof.Proof.Spec
import proofs.«119197_j18451179504039_2_alg».proof.Proof.LibConcat3
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionCat

open Cert.KernelIdeal Cert.KernelIdeal.Gen Idealize.ShloMosaic Idealize.ShloMosaic.TcCoe Idealize.SL.Sem
open Idealize.ShloMosaic.ValueIdx
open Idealize.ShloMosaic.Pipeline (Dat)

/-! ## The payloads at an index -/

/-- Region 2's payload at `(p, j)`: columns `0..63` from the first block, `64..127` from the second, `128..191`
    from the row. -/
theorem k2_pay1_apply (v0 : Vec Ideal S1x64 .f32) (v4 v6 : Vec Ideal S5000x64 .f32) (p : Fin 5000) (j : Fin 192) :
    Gen.k2_pay1 (F := Ideal) v0 v4 v6 (ix2 p j) = Cert.Spec.cat3 (n := 5000) v4 v6 v0 p j := by
  unfold Gen.k2_pay1 Cert.Spec.cat3
  refine (Cert.LibConcat3.concat3_apply (n := 5000) _ _ _ _ p j).trans ?_
  by_cases h1 : j.val < 64
  · simp only [dif_pos h1]
    rw [shapeCast_self]
  · simp only [dif_neg h1]
    by_cases h2 : j.val < 128
    · simp only [dif_pos h2]
      rw [shapeCast_self]
    · simp only [dif_neg h2]
      rw [broadcastTo_1b_ab_apply, shapeCast_self, shapeCast_self]

/-- Region 1's second payload at `(p, j)`: columns `0..63` from the linear-relu payload, `64..127` from the second
    block, `128..191` from the row. -/
theorem k1_pay2_apply (v0 : Vec Ideal S4000x64 .f32) (v2 : Vec Ideal S64x64 .f32) (v6 v13 : Vec Ideal S1x64 .f32)
    (v17 : Vec Ideal S4000x64 .f32) (p : Fin 4000) (j : Fin 192) :
    Gen.k1_pay2 (F := Ideal) v0 v2 v6 v13 v17 (ix2 p j)
      = Cert.Spec.cat3 (n := 4000) (Gen.k1_pay1 (F := Ideal) v0 v2 v6) v17 v13 p j := by
  unfold Gen.k1_pay2 Cert.Spec.cat3
  refine (Cert.LibConcat3.concat3_apply (n := 4000) _ _ _ _ p j).trans ?_
  by_cases h1 : j.val < 64
  · simp only [dif_pos h1]
  · simp only [dif_neg h1]
    by_cases h2 : j.val < 128
    · simp only [dif_pos h2]
      rw [shapeCast_self]
    · simp only [dif_neg h2]
      rw [broadcastTo_1b_ab_apply, shapeCast_self, shapeCast_self]

/-! ## From blocks to arrays -/

theorem hz : (![0, 0] : Fin 2 → Nat) = fun _ => 0 := funext fun a => by fin_cases a <;> rfl

/-- `cat3` of blocks is `cat3` of the arrays the blocks are rows of: row `p` of the two left pieces is row `r` of
    the arrays, and the row piece is the same row. -/
theorem cat3_of_rows {n n' : ℕ} {A' B' : Cert.Spec.Arr n' 64} {A B : Cert.Spec.Arr n 64} {g' g : Cert.Spec.Arr 1 64}
    (p : Fin n') (r : Fin n)
    (hA : ∀ k : Fin 64, A' (ix2 p k) = A (ix2 r k)) (hB : ∀ k : Fin 64, B' (ix2 p k) = B (ix2 r k))
    (hg : ∀ k : Fin 64, g' (ix2 0 k) = g (ix2 0 k)) (j : Fin 192) :
    Cert.Spec.cat3 A' B' g' p j = Cert.Spec.cat3 A B g r j := by
  unfold Cert.Spec.cat3
  split
  · exact hA _
  · split
    · exact hB _
    · exact hg _

/-! ### Region 2 -/

/-- What region 2's body leaves in the output block, at an index. -/
theorem out2_3_apply (x0 x1 : Vec Ideal S5000x64 .f32) (x2 : Vec Ideal S1x64 .f32) (p : Fin 5000) (j : Fin 192) :
    Gen.out2_3 (F := Ideal) x0 x1 x2 (ix2 p j) = Cert.Spec.cat3 (n := 5000) x0 x1 x2 p j := by
  unfold Gen.out2_3
  rw [View.canon_unit_zero hz]
  simp only [View.ld_unit_zero (S := S5000x64) hz, View.ld_unit_zero (S := S1x64) hz]
  exact k2_pay1_apply x2 x0 x1 p j

/-- Region 2's index maps over its ten points: the row-blocked windows sit at block row `t`, the row window at
    block `(0, 0)`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Region2
variable (V : (c : Dev nD) → (b : Ref sig .tc) → Buf (Elt Ideal) ((c : Thread nD τ).loc b))

/-- The array region 2 leaves: `cat3` of its three input arrays. -/
abbrev G2 (c : Dev nD) : S50000x192.Idx → EReal := fun idx =>
  Cert.Spec.cat3 (n := 50000) (V c (Pipeline.arrRef spec2 0)) (V c (Pipeline.arrRef spec2 1)) (V c (Pipeline.arrRef spec2 2))
    (idx 0) (idx 1)

/-- Point `t` writes back block `t` of `G2`. -/
theorem flushed2_eq (c : Dev nD) (t : Fin cfg2.N) :
    (Gen.dat2 (F := Ideal) V c).flushed 3 t = ((cfg2.win 3).blk t).view.read (Elt Ideal) (G2 V c) := by
  show (cfg2.win 3).cut (grid2.coords t) ((Gen.dat2 (F := Ideal) V c).after 3 t) = _
  rw [Gen.after2_3]
  obtain ⟨e00, e01, e10, e11, e20, e21, e30, e31⟩ := idx2 t
  have ht : t.val < 10 := lt_of_lt_of_eq t.isLt Gen.N_2
  funext y
  have hy0 : (y 0).val < 5000 := (y 0).isLt
  have hy1 : (y 1).val < 192 := (y 1).isLt
  have hy : (cfg2.win 3).xinj (grid2.coords t) y = ix2 (⟨(y 0).val, hy0⟩ : Fin 5000) (⟨(y 1).val, hy1⟩ : Fin 192) := by
    funext a
    match a with
    | ⟨0, _⟩ => rfl
    | ⟨1, _⟩ => rfl
  have hr : t.val * 5000 + (y 0).val < 50000 := by omega
  have hemb : ((cfg2.win 3).blk t).view.emb y
      = ix2 (⟨t.val * 5000 + (y 0).val, hr⟩ : Fin 50000) (⟨(y 1).val, hy1⟩ : Fin 192) := by
    funext a
    apply Fin.ext
    match a with
    | ⟨0, _⟩ => show win2_3.index t (0 : Fin 2) * 5000 + 1 * (y 0).val = t.val * 5000 + (y 0).val; rw [e30]; omega
    | ⟨1, _⟩ => show win2_3.index t (1 : Fin 2) * 192 + 1 * (y 1).val = (y 1).val; rw [e31]; omega
  show Gen.out2_3 (F := Ideal) (Gen.iblk2 V c 0 t) (Gen.iblk2 V c 1 t) (Gen.iblk2 V c 2 t) ((cfg2.win 3).xinj (grid2.coords t) y)
    = G2 V c (((cfg2.win 3).blk t).view.emb y)
  rw [hy, hemb, out2_3_apply]
  refine cat3_of_rows _ _ (fun k => ?_) (fun k => ?_) (fun k => ?_) _
  · show V c (Pipeline.arrRef spec2 0) (((cfg2.win 0).blk t).view.emb (ix2 (⟨(y 0).val, hy0⟩ : Fin 5000) k)) = _
    congr 1
    funext a
    apply Fin.ext
    match a with
    | ⟨0, _⟩ => show win2_0.index t (0 : Fin 2) * 5000 + 1 * (y 0).val = t.val * 5000 + (y 0).val; rw [e00]; omega
    | ⟨1, _⟩ => show win2_0.index t (1 : Fin 2) * 64 + 1 * k.val = k.val; rw [e01]; omega
  · show V c (Pipeline.arrRef spec2 1) (((cfg2.win 1).blk t).view.emb (ix2 (⟨(y 0).val, hy0⟩ : Fin 5000) k)) = _
    congr 1
    funext a
    apply Fin.ext
    match a with
    | ⟨0, _⟩ => show win2_1.index t (0 : Fin 2) * 5000 + 1 * (y 0).val = t.val * 5000 + (y 0).val; rw [e10]; omega
    | ⟨1, _⟩ => show win2_1.index t (1 : Fin 2) * 64 + 1 * k.val = k.val; rw [e11]; omega
  · show V c (Pipeline.arrRef spec2 2) (((cfg2.win 2).blk t).view.emb (ix2 (0 : Fin 1) k)) = _
    congr 1
    funext a
    apply Fin.ext
    match a with
    | ⟨0, _⟩ => show win2_2.index t (0 : Fin 2) * 1 + 1 * 0 = 0; rw [e20]
    | ⟨1, _⟩ => show win2_2.index t (1 : Fin 2) * 64 + 1 * k.val = k.val; rw [e21]; omega

/-- Every row of the output array is in the block of the point its row over 5000 names. -/
theorem rows_cover2 (i : S50000x192.Idx) :
    ∃ t : Fin cfg2.N, (cfg2.win 3).flush t = true ∧ i ∈ ((cfg2.win 3).blk t).view.set := by
  have hi0 : (i 0).val < 50000 := (i 0).isLt
  have hi1 : (i 1).val < 192 := (i 1).isLt
  have hN : cfg2.N = 10 := Gen.N_2
  let t : Fin cfg2.N := ⟨(i 0).val / 5000, by rw [hN]; omega⟩
  obtain ⟨-, -, -, -, -, -, e30, e31⟩ := idx2 t
  refine ⟨t, Gen.flush2_3 t, ?_⟩
  show i ∈ ((View.whole main_v33).slice (win2_3.rect t)).set
  rw [View.set_slice_whole, Rect.mem_set_unit]
  intro a
  match a with
  | ⟨0, _⟩ =>
    show win2_3.index t (0 : Fin 2) * 5000 ≤ (i 0).val ∧ (i 0).val < win2_3.index t (0 : Fin 2) * 5000 + 5000
    rw [e30]; show (i 0).val / 5000 * 5000 ≤ (i 0).val ∧ (i 0).val < (i 0).val / 5000 * 5000 + 5000; omega
  | ⟨1, _⟩ =>
    show win2_3.index t (1 : Fin 2) * 192 ≤ (i 1).val ∧ (i 1).val < win2_3.index t (1 : Fin 2) * 192 + 192
    rw [e31]; omega

/-- Region 2's output array at `(i, j)` is `cat3` of its three input arrays. -/
theorem final2 (c : Dev nD) (i : Fin 50000) (j : Fin 192) :
    (Gen.dat2 (F := Ideal) V c).arrAt 3 cfg2.N (ix2 i j)
      = Cert.Spec.cat3 (n := 50000) (V c (Pipeline.arrRef spec2 0)) (V c (Pipeline.arrRef spec2 1))
          (V c (Pipeline.arrRef spec2 2)) i j :=
  congrFun ((Gen.dat2 (F := Ideal) V c).arrAt_eq_of_cover 3 (G2 V c) (fun t _ => flushed2_eq V c t) rows_cover2) (ix2 i j)

end Region2

/-! ### Region 1, second output -/

/-- `linReluT` of blocks is `linReluT` of the arrays: row `p` of the block is row `r` of the array, the weight and
    bias blocks are the whole arrays. -/
theorem linReluT_of_rows {n n' K : ℕ} {x' : Cert.Spec.Arr n' K} {x : Cert.Spec.Arr n K} {w' w : Cert.Spec.Arr K 64}
    {b' b : Cert.Spec.Arr 1 64} (p : Fin n') (r : Fin n)
    (hx : ∀ cc : Fin K, x' (ix2 p cc) = x (ix2 r cc)) (hw : ∀ (cc : Fin K) (k : Fin 64), w' (ix2 cc k) = w (ix2 cc k))
    (hb : ∀ k : Fin 64, b' (ix2 0 k) = b (ix2 0 k)) (k : Fin 64) :
    Cert.Spec.linReluT x' w' b' p k = Cert.Spec.linReluT x w b r k := by
  unfold Cert.Spec.linReluT
  rw [hb k]
  congr 2
  exact Finset.sum_congr rfl fun cc _ => by rw [hx cc, hw cc k]

/-- What region 1's body leaves in the second output block, at an index. -/
theorem out1_6_apply (x0 x1 : Vec Ideal S4000x64 .f32) (x2 : Vec Ideal S64x64 .f32) (x3 x4 : Vec Ideal S1x64 .f32)
    (p : Fin 4000) (j : Fin 192) :
    Gen.out1_6 (F := Ideal) x0 x1 x2 x3 x4 (ix2 p j)
      = Cert.Spec.cat3 (n := 4000) (Gen.k1_pay1 (F := Ideal) x0 x2 x3) x1 x4 p j := by
  unfold Gen.out1_6
  rw [View.canon_unit_zero hz]
  simp only [View.ld_unit_zero (S := S4000x64) hz, View.ld_unit_zero (S := S64x64) hz, View.ld_unit_zero (S := S1x64) hz]
  exact k1_pay2_apply x0 x2 x3 x4 x1 p j

/-- Region 1's index maps over its two hundred points: the row-blocked windows sit at block row `t`, the weight,
    bias and row windows at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = t.val ∧ win1_6.index t (1 : Fin 2) = 0 :=
  (by decide +kernel : ∀ t : Fin grid1.N, _)

section Region1
variable (V : (c : Dev nD) → (b : Ref sig .tc) → Buf (Elt Ideal) ((c : Thread nD τ).loc b))

/-- The array region 1 leaves in its second output: `cat3` of the linear-relu of the first input array, the second
    input array and the row. -/
abbrev G1 (c : Dev nD) : S800000x192.Idx → EReal := fun idx =>
  Cert.Spec.cat3 (n := 800000)
    (fun jj => Cert.Spec.linReluT (n := 800000) (K := 64) (V c (Pipeline.arrRef spec1 0)) (V c (Pipeline.arrRef spec1 2))
      (V c (Pipeline.arrRef spec1 3)) (jj 0) (jj 1))
    (V c (Pipeline.arrRef spec1 1)) (V c (Pipeline.arrRef spec1 4)) (idx 0) (idx 1)

/-- Point `t` writes back block `t` of `G1`. -/
theorem flushed1_6_eq
    (hpay : ∀ (x0 : Vec Ideal S4000x64 .f32) (x2 : Vec Ideal S64x64 .f32) (x3 : Vec Ideal S1x64 .f32) (p : Fin 4000) (k : Fin 64),
      Gen.k1_pay1 (F := Ideal) x0 x2 x3 (ix2 p k) = Cert.Spec.linReluT (n := 4000) (K := 64) x0 x2 x3 p k)
    (c : Dev nD) (t : Fin cfg1.N) :
    (Gen.dat1 (F := Ideal) V c).flushed 6 t = ((cfg1.win 6).blk t).view.read (Elt Ideal) (G1 V c) := by
  show (cfg1.win 6).cut (grid1.coords t) ((Gen.dat1 (F := Ideal) V c).after 6 t) = _
  rw [Gen.after1_6]
  obtain ⟨e00, e01, e10, e11, e20, e21, e30, e31, e40, e41, e60, e61⟩ := idx1 t
  have ht : t.val < 200 := lt_of_lt_of_eq t.isLt Gen.N_1
  funext y
  have hy0 : (y 0).val < 4000 := (y 0).isLt
  have hy1 : (y 1).val < 192 := (y 1).isLt
  have hy : (cfg1.win 6).xinj (grid1.coords t) y = ix2 (⟨(y 0).val, hy0⟩ : Fin 4000) (⟨(y 1).val, hy1⟩ : Fin 192) := by
    funext a
    match a with
    | ⟨0, _⟩ => rfl
    | ⟨1, _⟩ => rfl
  have hr : t.val * 4000 + (y 0).val < 800000 := by omega
  have hemb : ((cfg1.win 6).blk t).view.emb y
      = ix2 (⟨t.val * 4000 + (y 0).val, hr⟩ : Fin 800000) (⟨(y 1).val, hy1⟩ : Fin 192) := by
    funext a
    apply Fin.ext
    match a with
    | ⟨0, _⟩ => show win1_6.index t (0 : Fin 2) * 4000 + 1 * (y 0).val = t.val * 4000 + (y 0).val; rw [e60]; omega
    | ⟨1, _⟩ => show win1_6.index t (1 : Fin 2) * 192 + 1 * (y 1).val = (y 1).val; rw [e61]; omega
  show Gen.out1_6 (F := Ideal) (Gen.iblk1 V c 0 t) (Gen.iblk1 V c 1 t) (Gen.iblk1 V c 2 t) (Gen.iblk1 V c 3 t)
      (Gen.iblk1 V c 4 t) ((cfg1.win 6).xinj (grid1.coords t) y)
    = G1 V c (((cfg1.win 6).blk t).view.emb y)
  rw [hy, hemb, out1_6_apply]
  refine cat3_of_rows _ _ (fun k => ?_) (fun k => ?_) (fun k => ?_) _
  · rw [hpay]
    refine linReluT_of_rows _ _ (fun cc => ?_) (fun cc k' => ?_) (fun k' => ?_) k
    · show V c (Pipeline.arrRef spec1 0) (((cfg1.win 0).blk t).view.emb (ix2 (⟨(y 0).val, hy0⟩ : Fin 4000) cc)) = _
      congr 1
      funext a
      apply Fin.ext
      match a with
      | ⟨0, _⟩ => show win1_0.index t (0 : Fin 2) * 4000 + 1 * (y 0).val = t.val * 4000 + (y 0).val; rw [e00]; omega
      | ⟨1, _⟩ => show win1_0.index t (1 : Fin 2) * 64 + 1 * cc.val = cc.val; rw [e01]; omega
    · show V c (Pipeline.arrRef spec1 2) (((cfg1.win 2).blk t).view.emb (ix2 cc k')) = _
      congr 1
      funext a
      apply Fin.ext
      match a with
      | ⟨0, _⟩ => show win1_2.index t (0 : Fin 2) * 64 + 1 * cc.val = cc.val; rw [e20]; omega
      | ⟨1, _⟩ => show win1_2.index t (1 : Fin 2) * 64 + 1 * k'.val = k'.val; rw [e21]; omega
    · show V c (Pipeline.arrRef spec1 3) (((cfg1.win 3).blk t).view.emb (ix2 (0 : Fin 1) k')) = _
      congr 1
      funext a
      apply Fin.ext
      match a with
      | ⟨0, _⟩ => show win1_3.index t (0 : Fin 2) * 1 + 1 * 0 = 0; rw [e30]
      | ⟨1, _⟩ => show win1_3.index t (1 : Fin 2) * 64 + 1 * k'.val = k'.val; rw [e31]; omega
  · show V c (Pipeline.arrRef spec1 1) (((cfg1.win 1).blk t).view.emb (ix2 (⟨(y 0).val, hy0⟩ : Fin 4000) k)) = _
    congr 1
    funext a
    apply Fin.ext
    match a with
    | ⟨0, _⟩ => show win1_1.index t (0 : Fin 2) * 4000 + 1 * (y 0).val = t.val * 4000 + (y 0).val; rw [e10]; omega
    | ⟨1, _⟩ => show win1_1.index t (1 : Fin 2) * 64 + 1 * k.val = k.val; rw [e11]; omega
  · show V c (Pipeline.arrRef spec1 4) (((cfg1.win 4).blk t).view.emb (ix2 (0 : Fin 1) k)) = _
    congr 1
    funext a
    apply Fin.ext
    match a with
    | ⟨0, _⟩ => show win1_4.index t (0 : Fin 2) * 1 + 1 * 0 = 0; rw [e40]
    | ⟨1, _⟩ => show win1_4.index t (1 : Fin 2) * 64 + 1 * k.val = k.val; rw [e41]; omega

/-- Every row of the second output array is in the block of the point its row over 4000 names. -/
theorem rows_cover1_6 (i : S800000x192.Idx) :
    ∃ t : Fin cfg1.N, (cfg1.win 6).flush t = true ∧ i ∈ ((cfg1.win 6).blk t).view.set := by
  have hi0 : (i 0).val < 800000 := (i 0).isLt
  have hi1 : (i 1).val < 192 := (i 1).isLt
  have hN : cfg1.N = 200 := Gen.N_1
  let t : Fin cfg1.N := ⟨(i 0).val / 4000, by rw [hN]; omega⟩
  obtain ⟨-, -, -, -, -, -, -, -, -, -, e60, e61⟩ := idx1 t
  refine ⟨t, Gen.flush1_6 t, ?_⟩
  show i ∈ ((View.whole main_v25_1).slice (win1_6.rect t)).set
  rw [View.set_slice_whole, Rect.mem_set_unit]
  intro a
  match a with
  | ⟨0, _⟩ =>
    show win1_6.index t (0 : Fin 2) * 4000 ≤ (i 0).val ∧ (i 0).val < win1_6.index t (0 : Fin 2) * 4000 + 4000
    rw [e60]; show (i 0).val / 4000 * 4000 ≤ (i 0).val ∧ (i 0).val < (i 0).val / 4000 * 4000 + 4000; omega
  | ⟨1, _⟩ =>
    show win1_6.index t (1 : Fin 2) * 192 ≤ (i 1).val ∧ (i 1).val < win1_6.index t (1 : Fin 2) * 192 + 192
    rw [e61]; omega

/-- Region 1's second output array at `(e, j)` is `cat3` of the linear-relu of the first input array, the second
    input array and the row. -/
theorem final1_6 (c : Dev nD)
    (hpay : ∀ (x0 : Vec Ideal S4000x64 .f32) (x2 : Vec Ideal S64x64 .f32) (x3 : Vec Ideal S1x64 .f32) (p : Fin 4000) (k : Fin 64),
      Gen.k1_pay1 (F := Ideal) x0 x2 x3 (ix2 p k) = Cert.Spec.linReluT (n := 4000) (K := 64) x0 x2 x3 p k)
    (e : Fin 800000) (j : Fin 192) :
    (Gen.dat1 (F := Ideal) V c).arrAt 6 cfg1.N (ix2 e j)
      = Cert.Spec.cat3 (n := 800000)
          (fun jj => Cert.Spec.linReluT (n := 800000) (K := 64) (V c (Pipeline.arrRef spec1 0)) (V c (Pipeline.arrRef spec1 2))
            (V c (Pipeline.arrRef spec1 3)) (jj 0) (jj 1))
          (V c (Pipeline.arrRef spec1 1)) (V c (Pipeline.arrRef spec1 4)) e j :=
  congrFun ((Gen.dat1 (F := Ideal) V c).arrAt_eq_of_cover 6 (G1 V c) (fun t _ => flushed1_6_eq V hpay c t) rows_cover1_6) (ix2 e j)

end Region1

end Cert.KernelIdeal.RegionCat

end
-- ==== Proof.RefStages.lean ====
/-
  The reference program's four result stages read at an index, as the program-free entries of Spec.lean:
  the node and edge encoders are one entry of a linear layer followed by relu, and the two concatenations are
  one entry of the row-wise join of two 64-column arrays and a repeated 64-entry row.
-/
import proofs.«119197_j18451179504039_2_alg».proof.Proof.Gen.ReferenceIdeal.Read
import proofs.«119197_j18451179504039_2_alg».proof.Proof.Spec
import proofs.«119197_j18451179504039_2_alg».proof.Proof.LibConcat3
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefStages

open Cert.ReferenceIdeal Cert.ReferenceIdeal.Gen Idealize.ShloMosaic Idealize.ShloMosaic.TcCoe Idealize.SL.Sem Idealize.ShloMosaic.StableHlo Idealize.ShloMosaic.ValueIdx

/-! ## The composed index maps of the linear stages, as coordinate pairs -/

/-- The left operand of the node product is read at row `i`, contraction column `c`. -/
theorem lidx1_eq (i : Fin 50000) (k : Fin 64) (c : Fin 128) : Read.lidx_main_v1 (ix2 i k) c = ix2 i c :=
  funext fun a => Fin.ext (by match a with | ⟨0, _⟩ => rfl | ⟨1, _⟩ => rfl)

/-- The transposed weight at `(c, k)` is the weight at `(k, c)`. -/
theorem ridx1_eq (i : Fin 50000) (k : Fin 64) (c : Fin 128) : Read.idx_main_v0 (Read.ridx_main_v1 (ix2 i k) c) = ix2 k c :=
  funext fun a => Fin.ext (by match a with | ⟨0, _⟩ => rfl | ⟨1, _⟩ => rfl)

/-- The twice-broadcast bias at `(i, k)` is the bias at `k`. -/
theorem bidx1_eq (i : Fin 50000) (k : Fin 64) : Read.idx_main_v2 (Read.idx_main_v3 (ix2 i k)) = ix1 k :=
  funext fun a => Fin.ext (by match a with | ⟨0, _⟩ => rfl)

/-- Entry `(i, k)` of the node encoder is `max (Σ_c x(i,c)·W(k,c) + b(k)) 0`. -/
theorem ne_apply (x0 : (⟨S50000x128, .f32⟩ : BufTy).Contents (Elt Ideal)) (x5 : (⟨S64x128, .f32⟩ : BufTy).Contents (Elt Ideal))
    (x6 : (⟨S64, .f32⟩ : BufTy).Contents (Elt Ideal)) (i : Fin 50000) (k : Fin 64) :
    Read.val_main_v5 (F := Ideal) x0 x5 x6 (ix2 i k) = Cert.Spec.linRelu (n := 50000) (K := 128) x0 x5 x6 i k := by
  rw [Read.val_main_v5_apply, Read.val_main_v4_apply, Read.val_main_v1_apply, Read.val_main_v3_apply, Read.val_main_v2_apply,
    Read.val_main_call0_v0_apply, Read.val_main_call0_cst_apply]
  simp only [Read.val_main_v0_apply, lidx1_eq, ridx1_eq, bidx1_eq]
  unfold Cert.Spec.linRelu
  show max (_ + _) (Ideal.ofBits .f32 0x00000000#32) = _
  rw [Ideal.ofBits_zero_f32]

/-! ## The edge encoder -/

/-- The left operand of the edge product is read at row `e`, contraction column `c`. -/
theorem lidx7_eq (e : Fin 800000) (k : Fin 64) (c : Fin 64) : Read.lidx_main_v7 (ix2 e k) c = ix2 e c :=
  funext fun a => Fin.ext (by match a with | ⟨0, _⟩ => rfl | ⟨1, _⟩ => rfl)

/-- The transposed weight at `(c, k)` is the weight at `(k, c)`. -/
theorem ridx7_eq (e : Fin 800000) (k : Fin 64) (c : Fin 64) : Read.idx_main_v6 (Read.ridx_main_v7 (ix2 e k) c) = ix2 k c :=
  funext fun a => Fin.ext (by match a with | ⟨0, _⟩ => rfl | ⟨1, _⟩ => rfl)

/-- The twice-broadcast bias at `(e, k)` is the bias at `k`. -/
theorem bidx7_eq (e : Fin 800000) (k : Fin 64) : Read.idx_main_v8 (Read.idx_main_v9 (ix2 e k)) = ix1 k :=
  funext fun a => Fin.ext (by match a with | ⟨0, _⟩ => rfl)

/-- Entry `(e, k)` of the edge encoder is `max (Σ_c x(e,c)·W(k,c) + b(k)) 0`. -/
theorem ee_apply (x1 : (⟨S800000x64, .f32⟩ : BufTy).Contents (Elt Ideal)) (x7 : (⟨S64x64, .f32⟩ : BufTy).Contents (Elt Ideal))
    (x8 : (⟨S64, .f32⟩ : BufTy).Contents (Elt Ideal)) (e : Fin 800000) (k : Fin 64) :
    Read.val_main_v11 (F := Ideal) x1 x7 x8 (ix2 e k) = Cert.Spec.linRelu (n := 800000) (K := 64) x1 x7 x8 e k := by
  rw [Read.val_main_v11_apply, Read.val_main_v10_apply, Read.val_main_v7_apply, Read.val_main_v9_apply, Read.val_main_v8_apply,
    Read.val_main_call1_v0_apply, Read.val_main_call1_cst_apply]
  simp only [Read.val_main_v6_apply, lidx7_eq, ridx7_eq, bidx7_eq]
  unfold Cert.Spec.linRelu
  show max (_ + _) (Ideal.ofBits .f32 0x00000000#32) = _
  rw [Ideal.ofBits_zero_f32]

/-! ## The repeated row: the broadcast of the global row to every node / edge row reads the row itself -/

/-- Entry `(i, k)` of the global row repeated over the nodes is the row's entry `(0, k)`. -/
theorem v32_apply (x2 : (⟨S1x32, .f32⟩ : BufTy).Contents (Elt Ideal)) (x9 : (⟨S64x32, .f32⟩ : BufTy).Contents (Elt Ideal))
    (x10 : (⟨S64, .f32⟩ : BufTy).Contents (Elt Ideal)) (i : Fin 50000) (k : Fin 64) :
    Read.val_main_v32 (F := Ideal) x2 x9 x10 (ix2 i k) = Read.val_main_v16 (F := Ideal) x2 x9 x10 (ix2 0 k) := by
  rw [Read.val_main_v32_apply]
  congr 1
  exact funext fun a => Fin.ext (by match a with | ⟨0, _⟩ => rfl | ⟨1, _⟩ => rfl)

/-- Entry `(e, k)` of the global row repeated over the edges is the row's entry `(0, k)`. -/
theorem v49_apply (x2 : (⟨S1x32, .f32⟩ : BufTy).Contents (Elt Ideal)) (x9 : (⟨S64x32, .f32⟩ : BufTy).Contents (Elt Ideal))
    (x10 : (⟨S64, .f32⟩ : BufTy).Contents (Elt Ideal)) (e : Fin 800000) (k : Fin 64) :
    Read.val_main_v49 (F := Ideal) x2 x9 x10 (ix2 e k) = Read.val_main_v16 (F := Ideal) x2 x9 x10 (ix2 0 k) := by
  rw [Read.val_main_v49_apply]
  congr 1
  exact funext fun a => Fin.ext (by match a with | ⟨0, _⟩ => rfl | ⟨1, _⟩ => rfl)

/-! ## The two concatenations -/

/-- Entry `(i, j)` of the node result: columns `0..63` the node encoder, `64..127` the scattered edge sums,
    `128..191` the global row. -/
theorem cn_apply (x0 : (⟨S50000x128, .f32⟩ : BufTy).Contents (Elt Ideal)) (x1 : (⟨S800000x64, .f32⟩ : BufTy).Contents (Elt Ideal))
    (x2 : (⟨S1x32, .f32⟩ : BufTy).Contents (Elt Ideal)) (x3 x4 : (⟨S800000, .i32⟩ : BufTy).Contents (Elt Ideal))
    (x5 : (⟨S64x128, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x32, .f32⟩ : BufTy).Contents (Elt Ideal)) (x10 : (⟨S64, .f32⟩ : BufTy).Contents (Elt Ideal))
    (i : Fin 50000) (j : Fin 192) :
    Read.val_main_v33 (F := Ideal) x0 x1 x2 x3 x4 x5 x6 x7 x8 x9 x10 (ix2 i j)
      = Cert.Spec.cat3 (n := 50000) (Read.val_main_v5 (F := Ideal) x0 x5 x6) (Read.val_main_v31 (F := Ideal) x1 x3 x4 x7 x8)
          (Read.val_main_v16 (F := Ideal) x2 x9 x10) i j := by
  unfold Read.val_main_v33 Cert.Spec.cat3
  refine (Cert.LibConcat3.concat3_apply (n := 50000) _ _ _ _ i j).trans ?_
  split
  · rfl
  · split
    · rfl
    · exact v32_apply x2 x9 x10 i _

/-- Entry `(e, j)` of the edge result: columns `0..63` the edge encoder, `64..127` the sum of the two gathered
    node rows, `128..191` the global row. -/
theorem ce_apply (x0 : (⟨S50000x128, .f32⟩ : BufTy).Contents (Elt Ideal)) (x1 : (⟨S800000x64, .f32⟩ : BufTy).Contents (Elt Ideal))
    (x2 : (⟨S1x32, .f32⟩ : BufTy).Contents (Elt Ideal)) (x3 x4 : (⟨S800000, .i32⟩ : BufTy).Contents (Elt Ideal))
    (x5 : (⟨S64x128, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x32, .f32⟩ : BufTy).Contents (Elt Ideal)) (x10 : (⟨S64, .f32⟩ : BufTy).Contents (Elt Ideal))
    (e : Fin 800000) (j : Fin 192) :
    Read.val_main_v50 (F := Ideal) x0 x1 x2 x3 x4 x5 x6 x7 x8 x9 x10 (ix2 e j)
      = Cert.Spec.cat3 (n := 800000) (Read.val_main_v11 (F := Ideal) x1 x7 x8) (Read.val_main_v48 (F := Ideal) x0 x3 x4 x5 x6)
          (Read.val_main_v16 (F := Ideal) x2 x9 x10) e j := by
  unfold Read.val_main_v50 Cert.Spec.cat3
  refine (Cert.LibConcat3.concat3_apply (n := 800000) _ _ _ _ e j).trans ?_
  split
  · rfl
  · split
    · rfl
    · exact v49_apply x2 x9 x10 e _

end Cert.ReferenceIdeal.RefStages

end
-- ==== Proof.LibScatterAdd.lean ====
/-
  An additive scatter of rows, read at one element.

  The host's accumulating scatter `x.at[idx].add(upd)` at the ideal instance is, at each element of the operand, that
  element plus the sum of the update elements whose destination is that element. For the two layouts a segment sum
  lowers to this file computes the destination and turns the sum over "updates that land here" into a sum over the
  update ROWS guarded by "this row's index word is my row":

  * rows: operand `[N, C]`, one index word per update row (indices `[E, 1]`), updates `[E, C]`. Update `(e, c)`
    lands on `(idx e, c)` when `0 ≤ idx e < N` (the word read signed, nothing clamped) and is dropped otherwise. So
    element `(n, k)` receives `∑ e, [idx e = n] · upd (e, k)`: only column `k` of the updates reaches column `k`.
  * scalars: operand `[N]`, indices `[E, 1]`, updates `[E]`. Update `e` lands on `idx e`; element `n`
    receives `∑ e, [idx e = n] · upd e`.

  Nothing here needs the summands to be finite: the sums are only re-indexed.
-/
import Idealize.ShloMosaic.PureOps.Ideal
import Idealize.ShloMosaic.Lib.ValueIdx

noncomputable section

open scoped BigOperators

namespace Idealize.ShloMosaic.ScatterAddAt

open Idealize.ShloMosaic Idealize.ShloMosaic.ValueIdx

/-! ## Rows: operand `[N, C]`, indices `[E, 1]`, updates `[E, C]` -/

section Rows
variable {N C E w : Nat}

/-- The dimension numbers of a row scatter: the updates' axis 1 is the window axis and goes to the operand's axis 1, the
    operand's axis 0 is the one the index word addresses, the index vector is the indices' axis 1 (of extent one). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- The index word of update row `e`. -/
abbrev rowWord (idx : IVec ⟨2, ![E, 1]⟩ w) (e : Fin E) : Int := (idx (ix2 e ⟨0, Nat.one_pos⟩)).toInt

/-- On the addressed axis the window starts at the update row's index word, read signed. -/
theorem rowDims_start0 (j : (⟨2, ![E, C]⟩ : Shape).Idx) (idx : IVec ⟨2, ![E, 1]⟩ w) :
    (rowDims N C E wf).start j idx 0 = rowWord idx (j 0) := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the window axis the window starts at zero. -/
theorem rowDims_start1 (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from by simp)]

/-- The addressed axis has no window coordinate. -/
theorem rowDims_window0 (j : (⟨2, ![E, C]⟩ : Shape).Idx) : (rowDims N C E wf).window j 0 = 0 := by
  unfold ScatterDims.window
  rw [dif_neg (show ¬ (0 : Fin 2) ∈ (rowDims N C E wf).sKept from by simp [ScatterDims.sKept, Shape.kept])]

/-- The window coordinate on the operand's axis 1 is the update's column. -/
theorem rowDims_window1 (j : (⟨2, ![E, C]⟩ : Shape).Idx) : (rowDims N C E wf).window j 1 = (j 1).val := by
  unfold ScatterDims.window
  rw [dif_pos (show (1 : Fin 2) ∈ (rowDims N C E wf).sKept from by simp [ScatterDims.sKept, Shape.kept])]
  rfl

/-- WHERE AN UPDATE LANDS: update `j = (e, c)` lands on operand element `i` exactly when row `e`'s index word is
    `i`'s row and `c` is `i`'s column. (A word outside `[0, N)` is no row: the update is dropped.) -/
theorem rowDims_resultIdx_eq_some_iff (j : (⟨2, ![E, C]⟩ : Shape).Idx) (idx : IVec ⟨2, ![E, 1]⟩ w)
    (i : (⟨2, ![N, C]⟩ : Shape).Idx) :
    (rowDims N C E wf).resultIdx? j idx = some i ↔ rowWord idx (j 0) = ((i 0).val : Int) ∧ (j 1).val = (i 1).val := by
  have hi0 := idx2_lt0 i
  have hi1 := idx2_lt1 i
  have hj1 := idx2_lt1 j
  unfold ScatterDims.resultIdx?
  split
  · next h =>
    rw [Option.some.injEq]
    have h0 := h 0
    rw [rowDims_start0, rowDims_window0] at h0
    constructor
    · intro hi
      have e0 : ((rowDims N C E wf).start j idx 0 + ((rowDims N C E wf).window j 0 : Int)).toNat = (i 0).val :=
        congrArg (fun f => (f 0).val) hi
      have e1 : ((rowDims N C E wf).start j idx 1 + ((rowDims N C E wf).window j 1 : Int)).toNat = (i 1).val :=
        congrArg (fun f => (f 1).val) hi
      rw [rowDims_start0, rowDims_window0] at e0
      rw [rowDims_start1, rowDims_window1] at e1
      omega
    · intro ⟨e0, e1⟩
      funext a
      refine Fin.ext ?_
      match a with
      | ⟨0, _⟩ =>
        show ((rowDims N C E wf).start j idx 0 + ((rowDims N C E wf).window j 0 : Int)).toNat = (i 0).val
        rw [rowDims_start0, rowDims_window0]; omega
      | ⟨1, _⟩ =>
        show ((rowDims N C E wf).start j idx 1 + ((rowDims N C E wf).window j 1 : Int)).toNat = (i 1).val
        rw [rowDims_start1, rowDims_window1]; omega
  · next h =>
    constructor
    · intro hn; cases hn
    · intro ⟨e0, e1⟩
      refine absurd (fun a => ?_) h
      match a with
      | ⟨0, _⟩ =>
        show 0 ≤ (rowDims N C E wf).start j idx 0 + ((rowDims N C E wf).window j 0 : Int)
          ∧ (rowDims N C E wf).start j idx 0 + ((rowDims N C E wf).window j 0 : Int) < ((N : Nat) : Int)
        rw [rowDims_start0, rowDims_window0]; omega
      | ⟨1, _⟩ =>
        show 0 ≤ (rowDims N C E wf).start j idx 1 + ((rowDims N C E wf).window j 1 : Int)
          ∧ (rowDims N C E wf).start j idx 1 + ((rowDims N C E wf).window j 1 : Int) < ((C : Nat) : Int)
        rw [rowDims_start1, rowDims_window1]; omega

/-- THE ROW SCATTER READ AT `(n, k)`: the operand's element plus, over the update rows whose index word is `n`, their
    column-`k` entries. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e : Fin E, if rowWord idx e = (n.val : Int) then upd (ix2 e k) else 0 := by
  unfold Ideal.hostScatterAdd
  congr 1
  rw [Finset.sum_filter, sum_idx2]
  refine Finset.sum_congr rfl fun e _ => ?_
  simp only [rowDims_resultIdx_eq_some_iff]
  by_cases hc : rowWord idx e = (n.val : Int)
  · rw [if_pos hc, Finset.sum_eq_single k]
    · exact if_pos ⟨hc, rfl⟩
    · intro b _ hb
      exact if_neg fun h => hb (Fin.ext h.2)
    · intro h; exact absurd (Finset.mem_univ k) h
  · rw [if_neg hc]
    exact Finset.sum_eq_zero fun b _ => if_neg fun h => hc h.1

end Rows

/-! ## Scalars: operand `[N]`, indices `[E, 1]`, updates `[E]` -/

section Scalars
variable {N E w : Nat}

/-- The dimension numbers of a scalar scatter: no window axis; the operand's one axis is addressed by the index word. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The window starts at the update's index word, read signed. -/
theorem vecDims_start0 (j : (⟨1, ![E]⟩ : Shape).Idx) (idx : IVec ⟨2, ![E, 1]⟩ w) :
    (vecDims N E wf).start j idx 0 = rowWord idx (j 0) := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- There is no window coordinate. -/
theorem vecDims_window0 (j : (⟨1, ![E]⟩ : Shape).Idx) : (vecDims N E wf).window j 0 = 0 := by
  unfold ScatterDims.window
  rw [dif_neg (show ¬ (0 : Fin 1) ∈ (vecDims N E wf).sKept from by simp [ScatterDims.sKept, Shape.kept])]

/-- WHERE AN UPDATE LANDS: update `e` lands on element `i` exactly when its index word is `i`. -/
theorem vecDims_resultIdx_eq_some_iff (j : (⟨1, ![E]⟩ : Shape).Idx) (idx : IVec ⟨2, ![E, 1]⟩ w)
    (i : (⟨1, ![N]⟩ : Shape).Idx) :
    (vecDims N E wf).resultIdx? j idx = some i ↔ rowWord idx (j 0) = ((i 0).val : Int) := by
  have hi0 : (i 0).val < N := (i 0).isLt
  unfold ScatterDims.resultIdx?
  split
  · next h =>
    rw [Option.some.injEq]
    have h0 := h 0
    rw [vecDims_start0, vecDims_window0] at h0
    constructor
    · intro hi
      have e0 : ((vecDims N E wf).start j idx 0 + ((vecDims N E wf).window j 0 : Int)).toNat = (i 0).val :=
        congrArg (fun f => (f 0).val) hi
      rw [vecDims_start0, vecDims_window0] at e0
      omega
    · intro e0
      funext a
      refine Fin.ext ?_
      match a with
      | ⟨0, _⟩ =>
        show ((vecDims N E wf).start j idx 0 + ((vecDims N E wf).window j 0 : Int)).toNat = (i 0).val
        rw [vecDims_start0, vecDims_window0]; omega
  · next h =>
    constructor
    · intro hn; cases hn
    · intro e0
      refine absurd (fun a => ?_) h
      match a with
      | ⟨0, _⟩ =>
        show 0 ≤ (vecDims N E wf).start j idx 0 + ((vecDims N E wf).window j 0 : Int)
          ∧ (vecDims N E wf).start j idx 0 + ((vecDims N E wf).window j 0 : Int) < ((N : Nat) : Int)
        rw [vecDims_start0, vecDims_window0]; omega

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE SCALAR SCATTER READ AT `n`: the operand's element plus the updates whose index word is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if rowWord idx e = (n.val : Int) then upd (ix1 e) else 0 := by
  unfold Ideal.hostScatterAdd
  congr 1
  rw [Finset.sum_filter, sum_idx1]
  refine Finset.sum_congr rfl fun e _ => ?_
  simp only [vecDims_resultIdx_eq_some_iff]
  rfl

end Scalars

end Idealize.ShloMosaic.ScatterAddAt

end
-- ==== Proof.ScatterBridge.lean ====
/-
  The edge-to-node aggregation of the two programs, joined.

  Each edge e adds its embedding row ee(e, ·) to both endpoints src e and dst e of a [50000, 64] array. The kernel program
  does this with two independent scatter-adds into zero arrays and adds the two results; the reference program chains the two
  scatter-adds into one zero array, after wrapping a negative index word (w < 0 ? w + 50000 : w).

  * The wrap is the identity on nonnegative words: `w < 0` signed against the word 0 is the bit 0, so the select keeps w.
  * A row scatter-add read at (n, k) is the operand's element plus the sum, over the update rows whose index word is n, of
    their column-k entries (ScatterAddAt.rowScatterAdd_apply). With z the zero array, the two sides at (n, k) are
    (0 + A) + (0 + B) and (0 + A) + B: equal by zero_add. No summand needs to be finite.
-/
import proofs.«119197_j18451179504039_2_alg».proof.KernelIdeal
import proofs.«119197_j18451179504039_2_alg».proof.ReferenceIdeal
import proofs.«119197_j18451179504039_2_alg».proof.Proof.LibScatterAdd
import Idealize.ShloMosaic.Lib.ValueIdx
import Idealize.ShloMosaic.Lib.Affine
import Idealize.ShloMosaic.PureOps.Ideal.Laws

noncomputable section

open scoped BigOperators

namespace Cert.ScatterBridge

open Idealize.ShloMosaic Idealize.ShloMosaic.ValueIdx Idealize.ShloMosaic.ScatterAddAt

/-! ## The wrap of a nonnegative index word -/

/-- A nonnegative word is not below the word 0, signed. -/
theorem slt_zero_ne_one (w : BitVec 32) (h : 0 ≤ w.toInt) : IntOp.cmpi .slt w (0#32) ≠ 1#1 := by
  intro hc
  have h1 := IntOp.cmpi_slt.1 hc
  have h0 : (0#32 : BitVec 32).toInt = 0 := by decide
  omega

/-- THE WRAP IS THE IDENTITY on an index array of nonnegative words, whatever word c is added in the other branch:
    for any length E and any evidence hb of the scalar broadcast. -/
theorem norm_eq_gen {E : Nat} (hb : (⟨0, ![]⟩ : Shape).BroadcastsInDim (⟨1, ![E]⟩ : Shape) (![] : Fin 0 → Fin 1))
    (c : BitVec 32) (s : IVec (⟨1, ![E]⟩ : Shape) 32) (h : ∀ e, 0 ≤ (s e).toInt) :
    select (cmpi .slt s (broadcastInDim (⟨1, ![E]⟩ : Shape) ![] hb (constantI (⟨0, ![]⟩ : Shape) 32 0#32)))
        (addi s (broadcastInDim (⟨1, ![E]⟩ : Shape) ![] hb (constantI (⟨0, ![]⟩ : Shape) 32 c))) s = s := by
  funext e
  show Scalar.select (IntOp.cmpi .slt (s e) (0#32)) _ (s e) = s e
  unfold Scalar.select
  exact if_neg (slt_zero_ne_one _ (h e))

/-! ## Two scatter-adds into zero arrays, summed, against the chain of the two -/

section Rows
variable {N C E w : Nat}

/-- Over any rows layout: with z a zero array, scattering u by i1 into z and by i2 into z and adding the results is
    scattering u by i1 into z and then by i2 into that. -/
theorem sum_eq_chain (wf wf' : ScatterDims.WF ⟨2, ![N, C]⟩ ⟨2, ![E, 1]⟩ ⟨2, ![E, C]⟩ [1] [0] [0] 1)
    (z z' : (⟨2, ![N, C]⟩ : Shape).Idx → EReal) (hz : ∀ i, z i = 0) (hz' : ∀ i, z' i = 0)
    (i1 i2 : IVec ⟨2, ![E, 1]⟩ w) (u : (⟨2, ![E, C]⟩ : Shape).Idx → EReal) :
    (fun i => Ideal.hostScatterAdd (rowDims N C E wf) z i1 u i + Ideal.hostScatterAdd (rowDims N C E wf) z i2 u i)
      = Ideal.hostScatterAdd (rowDims N C E wf') (Ideal.hostScatterAdd (rowDims N C E wf') z' i1 u) i2 u := by
  funext i
  obtain ⟨n, k, rfl⟩ : ∃ n k, i = ix2 n k := ⟨i 0, i 1, eq_ix2 i⟩
  show Ideal.hostScatterAdd (rowDims N C E wf) z i1 u (ix2 n k) + Ideal.hostScatterAdd (rowDims N C E wf) z i2 u (ix2 n k)
      = Ideal.hostScatterAdd (rowDims N C E wf') (Ideal.hostScatterAdd (rowDims N C E wf') z' i1 u) i2 u (ix2 n k)
  rw [rowScatterAdd_apply wf z i1 u n k, rowScatterAdd_apply wf z i2 u n k,
    rowScatterAdd_apply wf' (Ideal.hostScatterAdd (rowDims N C E wf') z' i1 u) i2 u n k,
    rowScatterAdd_apply wf' z' i1 u n k, hz, hz', zero_add, zero_add]

/-- The same law for the elementwise sum `addf` of two host scatter-adds against the chain of the two, over any two records
    d, d' that are the rows layout (updates' axis 1 the window, operand's axis 0 addressed by the index word). -/
theorem addf_scatterAdd_eq_chain (wf wf' : ScatterDims.WF ⟨2, ![N, C]⟩ ⟨2, ![E, 1]⟩ ⟨2, ![E, C]⟩ [1] [0] [0] 1)
    (d d' : ScatterDims ⟨2, ![N, C]⟩ ⟨2, ![E, 1]⟩ ⟨2, ![E, C]⟩) (hd : d = rowDims N C E wf) (hd' : d' = rowDims N C E wf')
    (z z' : FVec Ideal ⟨2, ![N, C]⟩ .f32) (hz : ∀ i, z i = 0) (hz' : ∀ i, z' i = 0)
    (i1 i2 : IVec ⟨2, ![E, 1]⟩ w) (u : FVec Ideal ⟨2, ![E, C]⟩ .f32) :
    addf (Host.scatterAdd d z i1 u) (Host.scatterAdd d z i2 u) = Host.scatterAdd d' (Host.scatterAdd d' z' i1 u) i2 u := by
  subst hd hd'
  exact sum_eq_chain wf wf' z z' hz hz' i1 i2 u

end Rows

/-! ## The two programs' spellings -/

section Programs
variable [Cert.KernelIdeal.Facts₀] [Cert.ReferenceIdeal.Facts₀]

/-- The float word 0 denotes 0. -/
theorem ofBits_zero : Ideal.ofBits .f32 0x00000000#32 = 0 := by simp [Ideal.ofBits, Ideal.ieee]

/-- A splat of the float word 0 is 0 at every index, for any shape and any evidence of the scalar broadcast. -/
theorem zero_apply {t : Shape} (hb : (⟨0, ![]⟩ : Shape).BroadcastsInDim t (![] : Fin 0 → Fin t.rank)) (i : t.Idx) :
    broadcastInDim t ![] hb (constant (F := Ideal) (⟨0, ![]⟩ : Shape) .f32 0x00000000#32) i = 0 := ofBits_zero

/-- The wrap as the reference program spells it (its operations 18 to 22, and 25 to 29), on nonnegative words. -/
theorem norm_eq (s : IVec Cert.ReferenceIdeal.S800000 32) (h : ∀ e, 0 ≤ (s e).toInt) :
    select (cmpi .slt s (broadcastInDim Cert.ReferenceIdeal.S800000 ![] Cert.ReferenceIdeal.Facts₀.bcast_S_S800000 (constantI Cert.ReferenceIdeal.S_ 32 0#32)))
        (addi s (broadcastInDim Cert.ReferenceIdeal.S800000 ![] Cert.ReferenceIdeal.Facts₀.bcast_S_S800000 (constantI Cert.ReferenceIdeal.S_ 32 50000#32))) s = s :=
  norm_eq_gen Cert.ReferenceIdeal.Facts₀.bcast_S_S800000 50000#32 s h

/-- THE AGGREGATION, JOINED: the kernel program's sum of two scatter-adds into zero arrays (its operations 26 to 32) is the
    reference program's chain of two scatter-adds at wrapped indices (its operations 17 to 31), when no index word is negative. -/
theorem e2n_eq (src dst : IVec Cert.KernelIdeal.S800000 32) (ee : FVec Ideal Cert.KernelIdeal.S800000x64 .f32)
    (hs : ∀ e, 0 ≤ (src e).toInt) (hd : ∀ e, 0 ≤ (dst e).toInt) :
    addf
        (Host.scatterAdd Cert.KernelIdeal.scatter_S50000x64_S800000x1_S800000x64_1_0_0_1
          (broadcastInDim Cert.KernelIdeal.S50000x64 ![] Cert.KernelIdeal.Facts₀.bcast_S_S50000x64 (constant (F := Ideal) Cert.KernelIdeal.S_ .f32 0x00000000#32))
          (broadcastInDim Cert.KernelIdeal.S800000x1 ![0] Cert.KernelIdeal.Facts₀.bcast_S800000_S800000x1_0 src) ee)
        (Host.scatterAdd Cert.KernelIdeal.scatter_S50000x64_S800000x1_S800000x64_1_0_0_1
          (broadcastInDim Cert.KernelIdeal.S50000x64 ![] Cert.KernelIdeal.Facts₀.bcast_S_S50000x64 (constant (F := Ideal) Cert.KernelIdeal.S_ .f32 0x00000000#32))
          (broadcastInDim Cert.KernelIdeal.S800000x1 ![0] Cert.KernelIdeal.Facts₀.bcast_S800000_S800000x1_0 dst) ee)
      = Host.scatterAdd Cert.ReferenceIdeal.scatter_S50000x64_S800000x1_S800000x64_1_0_0_1
          (Host.scatterAdd Cert.ReferenceIdeal.scatter_S50000x64_S800000x1_S800000x64_1_0_0_1
            (broadcastInDim Cert.ReferenceIdeal.S50000x64 ![] Cert.ReferenceIdeal.Facts₀.bcast_S_S50000x64 (constant (F := Ideal) Cert.ReferenceIdeal.S_ .f32 0x00000000#32))
            (broadcastInDim Cert.ReferenceIdeal.S800000x1 ![0] Cert.ReferenceIdeal.Facts₀.bcast_S800000_S800000x1_0
              (select (cmpi .slt src (broadcastInDim Cert.ReferenceIdeal.S800000 ![] Cert.ReferenceIdeal.Facts₀.bcast_S_S800000 (constantI Cert.ReferenceIdeal.S_ 32 0#32)))
                (addi src (broadcastInDim Cert.ReferenceIdeal.S800000 ![] Cert.ReferenceIdeal.Facts₀.bcast_S_S800000 (constantI Cert.ReferenceIdeal.S_ 32 50000#32))) src))
            ee)
          (broadcastInDim Cert.ReferenceIdeal.S800000x1 ![0] Cert.ReferenceIdeal.Facts₀.bcast_S800000_S800000x1_0
            (select (cmpi .slt dst (broadcastInDim Cert.ReferenceIdeal.S800000 ![] Cert.ReferenceIdeal.Facts₀.bcast_S_S800000 (constantI Cert.ReferenceIdeal.S_ 32 0#32)))
              (addi dst (broadcastInDim Cert.ReferenceIdeal.S800000 ![] Cert.ReferenceIdeal.Facts₀.bcast_S_S800000 (constantI Cert.ReferenceIdeal.S_ 32 50000#32))) dst))
          ee := by
  rw [norm_eq src hs, norm_eq dst hd]
  exact addf_scatterAdd_eq_chain (N := 50000) (C := 64) (E := 800000)
    Cert.KernelIdeal.Facts₀.scatter_S50000x64_S800000x1_S800000x64_1_0_0_1_wf
    Cert.ReferenceIdeal.Facts₀.scatter_S50000x64_S800000x1_S800000x64_1_0_0_1_wf
    Cert.KernelIdeal.scatter_S50000x64_S800000x1_S800000x64_1_0_0_1 Cert.ReferenceIdeal.scatter_S50000x64_S800000x1_S800000x64_1_0_0_1 rfl rfl
    _ _ (zero_apply Cert.KernelIdeal.Facts₀.bcast_S_S50000x64) (zero_apply Cert.ReferenceIdeal.Facts₀.bcast_S_S50000x64) _ _ ee

end Programs

end Cert.ScatterBridge

end
-- ==== Proof.RefGlue.lean ====
/-
  The two programs spell the same host operations over their own shape names and records. The records have equal fields
  and the shape names abbreviate equal shapes, so a stage of the reference program and the kernel program's host chain over
  the same operands are one term: the global row, the per-edge sum of the two gathered endpoint rows, and the chained
  scatter-adds of the edge embedding.
-/
import proofs.«119197_j18451179504039_2_alg».proof.Proof.Gen.ReferenceIdeal.Read
import proofs.«119197_j18451179504039_2_alg».proof.Proof.Plumb
import proofs.«119197_j18451179504039_2_alg».proof.Proof.ScatterBridge

noncomputable section

namespace Cert.RefGlue

open Idealize.ShloMosaic Idealize.ShloMosaic.TcCoe Idealize.SL.Sem Idealize.ShloMosaic.StableHlo
open Cert.ReferenceIdeal (Read.val_main_v5 Read.val_main_v11 Read.val_main_v16 Read.val_main_v31 Read.val_main_v48)
open Cert.KernelIdeal (Plumb.globalRow Plumb.nodeToEdge Plumb.edgeToNodes)

/-- The reference's global row `relu (g · W_gᵀ + b_g)` is the kernel program's. -/
theorem gr_eq (x2 : (⟨Cert.ReferenceIdeal.S1x32, .f32⟩ : BufTy).Contents (Elt Ideal))
    (x9 : (⟨Cert.ReferenceIdeal.S64x32, .f32⟩ : BufTy).Contents (Elt Ideal))
    (x10 : (⟨Cert.ReferenceIdeal.S64, .f32⟩ : BufTy).Contents (Elt Ideal)) :
    Read.val_main_v16 (F := Ideal) x2 x9 x10 = Plumb.globalRow (F := Ideal) x2 x9 x10 := rfl

/-- The reference's per-edge sum of the two gathered rows of the node embedding is the kernel program's, over the
    reference's node embedding. -/
theorem n2e_eq (x0 : (⟨Cert.ReferenceIdeal.S50000x128, .f32⟩ : BufTy).Contents (Elt Ideal))
    (x3 x4 : (⟨Cert.ReferenceIdeal.S800000, .i32⟩ : BufTy).Contents (Elt Ideal))
    (x5 : (⟨Cert.ReferenceIdeal.S64x128, .f32⟩ : BufTy).Contents (Elt Ideal))
    (x6 : (⟨Cert.ReferenceIdeal.S64, .f32⟩ : BufTy).Contents (Elt Ideal)) :
    Read.val_main_v48 (F := Ideal) x0 x3 x4 x5 x6
      = Plumb.nodeToEdge (F := Ideal) (Read.val_main_v5 (F := Ideal) x0 x5 x6) x3 x4 := rfl

/-- The per-edge sum depends on the node array only through its value. -/
theorem n2e_congr (ne ne' : FVec Ideal Cert.KernelIdeal.S50000x64 .f32) (h : ne = ne')
    (x3 x4 : IVec Cert.KernelIdeal.S800000 32) :
    Plumb.nodeToEdge (F := Ideal) ne x3 x4 = Plumb.nodeToEdge (F := Ideal) ne' x3 x4 := by
  subst h; rfl

/-- The reference's scattered edge sums, spelt out: the edge embedding scattered by the wrapped sources into a zero array,
    then by the wrapped destinations into that. -/
theorem v31_unfold (x1 : (⟨Cert.ReferenceIdeal.S800000x64, .f32⟩ : BufTy).Contents (Elt Ideal))
    (x3 x4 : (⟨Cert.ReferenceIdeal.S800000, .i32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal)) :
    Read.val_main_v31 (F := Ideal) x1 x3 x4 x7 x8
      = Host.scatterAdd Cert.ReferenceIdeal.scatter_S50000x64_S800000x1_S800000x64_1_0_0_1
          (Host.scatterAdd Cert.ReferenceIdeal.scatter_S50000x64_S800000x1_S800000x64_1_0_0_1
            (broadcastInDim Cert.ReferenceIdeal.S50000x64 ![] Cert.ReferenceIdeal.Facts₀.bcast_S_S50000x64 (constant (F := Ideal) Cert.ReferenceIdeal.S_ .f32 0x00000000#32))
            (broadcastInDim Cert.ReferenceIdeal.S800000x1 ![0] Cert.ReferenceIdeal.Facts₀.bcast_S800000_S800000x1_0
              (select (cmpi .slt x3 (broadcastInDim Cert.ReferenceIdeal.S800000 ![] Cert.ReferenceIdeal.Facts₀.bcast_S_S800000 (constantI Cert.ReferenceIdeal.S_ 32 0#32)))
                (addi x3 (broadcastInDim Cert.ReferenceIdeal.S800000 ![] Cert.ReferenceIdeal.Facts₀.bcast_S_S800000 (constantI Cert.ReferenceIdeal.S_ 32 50000#32))) x3))
            (Read.val_main_v11 (F := Ideal) x1 x7 x8))
          (broadcastInDim Cert.ReferenceIdeal.S800000x1 ![0] Cert.ReferenceIdeal.Facts₀.bcast_S800000_S800000x1_0
            (select (cmpi .slt x4 (broadcastInDim Cert.ReferenceIdeal.S800000 ![] Cert.ReferenceIdeal.Facts₀.bcast_S_S800000 (constantI Cert.ReferenceIdeal.S_ 32 0#32)))
              (addi x4 (broadcastInDim Cert.ReferenceIdeal.S800000 ![] Cert.ReferenceIdeal.Facts₀.bcast_S_S800000 (constantI Cert.ReferenceIdeal.S_ 32 50000#32))) x4))
          (Read.val_main_v11 (F := Ideal) x1 x7 x8) := rfl

/-- The kernel program's edge-to-node aggregation, spelt out: two scatter-adds into zero arrays, added. -/
theorem e2n_K_unfold (ee : FVec Ideal Cert.KernelIdeal.S800000x64 .f32) (src dst : IVec Cert.KernelIdeal.S800000 32) :
    Plumb.edgeToNodes (F := Ideal) ee src dst
      = addf
        (Host.scatterAdd Cert.KernelIdeal.scatter_S50000x64_S800000x1_S800000x64_1_0_0_1
          (broadcastInDim Cert.KernelIdeal.S50000x64 ![] Cert.KernelIdeal.Facts₀.bcast_S_S50000x64 (constant (F := Ideal) Cert.KernelIdeal.S_ .f32 0x00000000#32))
          (broadcastInDim Cert.KernelIdeal.S800000x1 ![0] Cert.KernelIdeal.Facts₀.bcast_S800000_S800000x1_0 src) ee)
        (Host.scatterAdd Cert.KernelIdeal.scatter_S50000x64_S800000x1_S800000x64_1_0_0_1
          (broadcastInDim Cert.KernelIdeal.S50000x64 ![] Cert.KernelIdeal.Facts₀.bcast_S_S50000x64 (constant (F := Ideal) Cert.KernelIdeal.S_ .f32 0x00000000#32))
          (broadcastInDim Cert.KernelIdeal.S800000x1 ![0] Cert.KernelIdeal.Facts₀.bcast_S800000_S800000x1_0 dst) ee) := rfl

/-- THE AGGREGATION, GLUED: over the reference's edge embedding and index words none of which is negative, the kernel
    program's sum of two scatter-adds into zero arrays is the reference's chained scatter-adds at wrapped indices. -/
theorem e2n_glue (x1 : (⟨Cert.ReferenceIdeal.S800000x64, .f32⟩ : BufTy).Contents (Elt Ideal))
    (x3 x4 : (⟨Cert.ReferenceIdeal.S800000, .i32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal))
    (ee : FVec Ideal Cert.KernelIdeal.S800000x64 .f32) (hee : ee = Read.val_main_v11 (F := Ideal) x1 x7 x8)
    (hs : ∀ e, 0 ≤ (x3 e).toInt) (hd : ∀ e, 0 ≤ (x4 e).toInt) :
    Plumb.edgeToNodes (F := Ideal) ee x3 x4 = Read.val_main_v31 (F := Ideal) x1 x3 x4 x7 x8 := by
  subst hee
  exact (e2n_K_unfold _ x3 x4).trans ((Cert.ScatterBridge.e2n_eq x3 x4 _ hs hd).trans (v31_unfold x1 x3 x4 x7 x8).symm)

end Cert.RefGlue

end
-- ==== Proof.Bridge.lean ====
/-
  The kernel program's two result arrays are the reference's two results.

  Index by index both node results are the concatenation `[node embedding | scattered edge embedding | global row]`
  and both edge results `[edge embedding | gathered endpoint sums | global row]`:
  * the node and edge embeddings are `relu (x · Wᵀ + b)` on both sides — the kernel's blockwise matrix products into a
    zero accumulator against the reference's one contraction, the weight transposed on the host in both programs, the
    bias a row in one and a double broadcast in the other;
  * the gathered endpoint sums and the global row are the same host operations applied to equal arrays;
  * the scattered edge embedding is two independent scatter-adds into zero arrays, summed, in the kernel program and one
    chain of two scatter-adds in the reference, which first wraps negative index words by the node count: with every index
    word non-negative (the precondition) the wrap is the identity, and `(0 + A) + (0 + B) = (0 + A) + B`.
-/
import proofs.«119197_j18451179504039_2_alg».proof.Proof.KernelRun
import proofs.«119197_j18451179504039_2_alg».proof.Proof.RegionLin
import proofs.«119197_j18451179504039_2_alg».proof.Proof.RegionCat
import proofs.«119197_j18451179504039_2_alg».proof.Proof.RefStages
import proofs.«119197_j18451179504039_2_alg».proof.Proof.RefGlue
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.RunValue

variable (m : (ℓ : Loc nD τ sig) → Buf (Elt Ideal) ℓ) (ρ : Dev nD → PrngReg) (c : Dev nD)

/-- The node embedding region 0 leaves is the reference's `relu (x · W_nodeᵀ + b_node)`, entry by entry. -/
theorem nodeEmb_apply (i : Fin 50000) (k : Fin 64) :
    nodeEmb m ρ c (ix2 i k)
      = Cert.ReferenceIdeal.Read.val_main_v5 (F := Ideal) (m ((c : Thread nD τ).loc main_arg0)) (m ((c : Thread nD τ).loc main_arg5))
          (m ((c : Thread nD τ).loc main_arg6)) (ix2 i k) := by
  rw [Cert.ReferenceIdeal.RefStages.ne_apply]
  refine (Cert.KernelIdeal.RegionLin.final0 (V1 m ρ) c i k).trans ?_
  rw [V1_a0 m ρ c, V1_a1 m ρ c, V1_a2 m ρ c]
  exact Cert.Spec.linReluT_eq _ _ _ _ _ (fun c' k' => transpose_ix2_apply _ _ c' k') (fun k' => shapeCast_a_1a_apply _ _ 0 k') i k

theorem nodeEmb_eq :
    nodeEmb m ρ c = Cert.ReferenceIdeal.Read.val_main_v5 (F := Ideal) (m ((c : Thread nD τ).loc main_arg0)) (m ((c : Thread nD τ).loc main_arg5))
          (m ((c : Thread nD τ).loc main_arg6)) :=
  funext fun j => by rw [eq_ix2 j]; exact nodeEmb_apply m ρ c _ _

/-- The edge embedding region 1 leaves is the reference's `relu (ef · W_edgeᵀ + b_edge)`, entry by entry. -/
theorem edgeEmb_apply (e : Fin 800000) (k : Fin 64) :
    edgeEmb m ρ c (ix2 e k)
      = Cert.ReferenceIdeal.Read.val_main_v11 (F := Ideal) (m ((c : Thread nD τ).loc main_arg1)) (m ((c : Thread nD τ).loc main_arg7))
          (m ((c : Thread nD τ).loc main_arg8)) (ix2 e k) := by
  rw [Cert.ReferenceIdeal.RefStages.ee_apply]
  refine (Cert.KernelIdeal.RegionLin.final1_5 (V5 m ρ) c e k).trans ?_
  rw [V5_a0 m ρ c, V5_a2 m ρ c, V5_a3 m ρ c]
  exact Cert.Spec.linReluT_eq _ _ _ _ _ (fun c' k' => transpose_ix2_apply _ _ c' k') (fun k' => shapeCast_a_1a_apply _ _ 0 k') e k

theorem edgeEmb_eq :
    edgeEmb m ρ c = Cert.ReferenceIdeal.Read.val_main_v11 (F := Ideal) (m ((c : Thread nD τ).loc main_arg1)) (m ((c : Thread nD τ).loc main_arg7))
          (m ((c : Thread nD τ).loc main_arg8)) :=
  funext fun j => by rw [eq_ix2 j]; exact edgeEmb_apply m ρ c _ _

/-- The node result, entry by entry. -/
theorem node_apply (hs : ∀ e, 0 ≤ ((m ((c : Thread nD τ).loc main_arg3)) e).toInt)
    (hd : ∀ e, 0 ≤ ((m ((c : Thread nD τ).loc main_arg4)) e).toInt) (i : Fin 50000) (j : Fin 192) :
    W8 m ρ c (Proc.devRef .tc main_v33) (ix2 i j)
      = Cert.ReferenceIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (ix2 i j) := by
  rw [Cert.ReferenceIdeal.RefStages.cn_apply]
  refine (congrFun (W8_v33 m ρ c) (ix2 i j)).trans ?_
  refine (Cert.KernelIdeal.RegionCat.final2 (V7 m ρ) c i j).trans ?_
  refine Cert.Spec.cat3_congr ?_ ?_ ?_ i j
  · intro i' k'
    rw [V7_a0 m ρ c]; exact nodeEmb_apply m ρ c i' k'
  · intro i' k'
    rw [V7_a1 m ρ c]
    exact congrFun (Cert.RefGlue.e2n_glue _ _ _ _ _ (edgeEmb m ρ c) (edgeEmb_eq m ρ c) hs hd) (ix2 i' k')
  · intro k'
    rw [V7_a2 m ρ c]
    exact (congrFun (Cert.RefGlue.gr_eq _ _ _) (ix2 0 k')).symm

/-- The edge result, entry by entry. -/
theorem edge_apply (e : Fin 800000) (j : Fin 192) :
    W8 m ρ c (Proc.devRef .tc main_v25_1) (ix2 e j)
      = Cert.ReferenceIdeal.Read.val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (ix2 e j) := by
  rw [Cert.ReferenceIdeal.RefStages.ce_apply]
  refine (congrFun (W8_v25_1 m ρ c) (ix2 e j)).trans ?_
  refine (Cert.KernelIdeal.RegionCat.final1_6 (V5 m ρ) c Cert.KernelIdeal.RegionLin.k1_pay1_apply e j).trans ?_
  refine Cert.Spec.cat3_congr ?_ ?_ ?_ e j
  · intro e' k'
    exact (Cert.KernelIdeal.RegionLin.final1_5 (V5 m ρ) c e' k').symm.trans (edgeEmb_apply m ρ c e' k')
  · intro e' k'
    rw [V5_a1 m ρ c, Cert.RefGlue.n2e_eq]
    exact congrFun (Cert.RefGlue.n2e_congr _ _ (nodeEmb_eq m ρ c) _ _) (ix2 e' k')
  · intro k'
    rw [V5_a4 m ρ c]
    exact (congrFun (Cert.RefGlue.gr_eq _ _ _) (ix2 0 k')).symm

/-- The node result as an array. -/
theorem node_eq (hs : ∀ e, 0 ≤ ((m ((c : Thread nD τ).loc main_arg3)) e).toInt)
    (hd : ∀ e, 0 ≤ ((m ((c : Thread nD τ).loc main_arg4)) e).toInt) :
    W8 m ρ c (Proc.devRef .tc main_v33)
      = Cert.ReferenceIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
  funext fun j => by rw [eq_ix2 j]; exact node_apply m ρ c hs hd _ _

/-- The edge result as an array. -/
theorem edge_eq :
    W8 m ρ c (Proc.devRef .tc main_v25_1)
      = Cert.ReferenceIdeal.Read.val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
  funext fun j => by rw [eq_ix2 j]; exact edge_apply m ρ c _ _

end Cert.Bridge

end
-- ==== Proof.PreDecode.lean ====
/-
  The precondition read back at the two index arrays. The printed predicate is a conjunction (by `and` on i1 words) of eleven
  `jnp.all` reductions; its last two conjuncts are all(src ≥ 0) and all(dst ≥ 0), signed. A conjunction that is 1 has every
  conjunct 1 (IntOp.andi_eq_one); a reduction by `and` into one word that is 1 met a 1 at every element (Host.reduce_andi_all);
  and the element `cmpi .sge (s e) 0 = 1` says 0 ≤ (s e).toInt (IntOp.cmpi_sge).
-/
import proofs.«119197_j18451179504039_2_alg».proof.Pre_finite_inputs
import Idealize.ShloMosaic.Lib.ReduceAll
import Idealize.ShloMosaic.Lib.ValueIdx

noncomputable section

namespace Cert.PreDecode

open Idealize.ShloMosaic Cert.Pre_finite_inputs

/-- The rank-0 shape has one index. -/
instance subsingleton_S_ : Subsingleton S_.Idx := ⟨fun a b => funext fun d => d.elim0⟩

/-- An element of `s ≥ 0` (signed, against the splat of the word 0) that is 1 says the word is nonnegative. -/
theorem nonneg_of_sge (w : BitVec 32) (h : IntOp.cmpi .sge w (0#32) = 1#1) : 0 ≤ w.toInt := by
  have := IntOp.cmpi_sge.1 h
  simpa using this

/-- The precondition gives both index arrays nonnegative at every edge. -/
theorem nonneg_of_pre {F : FTy → Type} [FloatOps F] [Facts]
    (a0 : FVec F S50000x128 .f32) (a1 : FVec F S800000x64 .f32) (a2 : FVec F S1x32 .f32)
    (a3 : IVec S800000 32) (a4 : IVec S800000 32) (a5 : FVec F S64x128 .f32) (a6 : FVec F S64 .f32)
    (a7 : FVec F S64x64 .f32) (a8 : FVec F S64 .f32) (a9 : FVec F S64x32 .f32) (a10 : FVec F S64 .f32)
    (h : fn (F := F) a0 a1 a2 a3 a4 a5 a6 a7 a8 a9 a10 = (fun _ => 1#1)) :
    (∀ e, 0 ≤ (a3 e).toInt) ∧ (∀ e, 0 ≤ (a4 e).toInt) := by
  have h0 := congrFun h ValueIdx.ix0
  dsimp only [fn, fn_part1, fn_part2, fn_part3, andi] at h0
  obtain ⟨h47, h50⟩ := IntOp.andi_eq_one.1 h0
  obtain ⟨-, h46⟩ := IntOp.andi_eq_one.1 h47
  refine ⟨fun e => ?_, fun e => ?_⟩
  · exact nonneg_of_sge _ (Host.reduce_andi_all _ _ _ _ _ h46 e)
  · exact nonneg_of_sge _ (Host.reduce_andi_all _ _ _ _ _ h50 e)

end Cert.PreDecode

end
-- ==== Proof.lean ====
/-
  The certificate of the message-passing layer: the Pallas program (three pallas_calls — a node linear-plus-relu, a fused
  edge linear-plus-relu with the edge concatenation, a node concatenation — among host gathers, scatter-adds and the
  global projection) against its jnp reference, at the exact extended-real reading of both.

  * The three frames: the two kernel programs' runs terminate without a fault and keep their arguments (the generated
    launch proofs over the regions' segments); the reference is a straight line of host operations.
  * No float operation was rewritten by the idealization, so there is nothing to preserve.
  * The value claim: both programs end with the node result `[relu(x·W_nᵀ+b_n) | Σ_src edge_emb + Σ_dst edge_emb | g]` and
    the edge result `[relu(ef·W_eᵀ+b_e) | node_emb[src] + node_emb[dst] | g]`, `g = relu(gf·W_gᵀ+b_g)`.  The kernel's matrix
    products are taken block by block into zero accumulators; its scatter-add is two independent sums added afterwards,
    the reference's one chain — equal in the extended reals by associativity and `0 + x = x` alone.  The one place the
    programs differ on arbitrary integers is a NEGATIVE endpoint index: the reference wraps it by the node count before
    scattering while the kernel's segment sums drop it; the precondition's last two conjuncts (every endpoint index is
    non-negative) make the wrap the identity.  Finiteness of the float inputs is not used.
-/
import proofs.«119197_j18451179504039_2_alg».proof.Defs
import proofs.«119197_j18451179504039_2_alg».proof.Proof.Gen.Kernel
import proofs.«119197_j18451179504039_2_alg».proof.Proof.Gen.Kernel.Frame
import proofs.«119197_j18451179504039_2_alg».proof.Proof.Gen.KernelIdeal
import proofs.«119197_j18451179504039_2_alg».proof.Proof.Gen.KernelIdeal.Frame
import proofs.«119197_j18451179504039_2_alg».proof.Proof.Gen.ReferenceIdeal
import proofs.«119197_j18451179504039_2_alg».proof.Proof.Gen.ReferenceIdeal.Run
import proofs.«119197_j18451179504039_2_alg».proof.Proof.Gen.ReferenceIdeal.Read
import proofs.«119197_j18451179504039_2_alg».proof.Proof.Gen.Pre_finite_inputs
import proofs.«119197_j18451179504039_2_alg».proof.Proof.Bridge
import proofs.«119197_j18451179504039_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs, run from memories agreeing on the arguments, end with the same two arrays: the kernel
    program's are the last boundary's contents at its two result buffers, and the reference's composed terms are the same
    arrays (`Bridge.node_eq`, `Bridge.edge_eq`) once the arguments are identified and the endpoint indices are known
    non-negative. -/
theorem algebraic : Cert.algebraic_KernelIdeal_ReferenceIdeal := by
  intro m ρ m' ρ' hpre hagree
  refine ⟨fun c => Cert.KernelIdeal.Gen.W8 m ρ c (Proc.devRef .tc Cert.KernelIdeal.main_v33),
    fun c => Cert.KernelIdeal.Gen.W8 m ρ c (Proc.devRef .tc Cert.KernelIdeal.main_v25_1),
    Cert.KernelIdeal.RunValue.run_results m ρ, ?_⟩
  refine (θ_run Cert.ReferenceIdeal.defs _ _).mono (fun r h c => ?_) (Cert.ReferenceIdeal.Value.run (F := Ideal) m' ρ')
  obtain ⟨h33, h50, hargs⟩ := h c
  obtain ⟨e0, e1, e2, e3, e4, e5, e6, e7, e8, e9, e10⟩ := hagree c
  obtain ⟨hs, hd⟩ := Cert.PreDecode.nonneg_of_pre (F := Ideal) _ _ _ _ _ _ _ _ _ _ _ (hpre c)
  refine ⟨?_, ?_, hargs⟩
  · refine (h33.trans (Cert.ReferenceIdeal.Read.val_main_v33_eq _ _ _ _ _ _ _ _ _ _ _)).trans ?_
    rw [e0, e1, e2, e3, e4, e5, e6, e7, e8, e9, e10]
    exact (Cert.Bridge.node_eq m ρ c hs hd).symm
  · refine (h50.trans (Cert.ReferenceIdeal.Read.val_main_v50_eq _ _ _ _ _ _ _ _ _ _ _)).trans ?_
    rw [e0, e1, e2, e3, e4, e5, e6, e7, e8, e9, e10]
    exact (Cert.Bridge.edge_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
